-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x8 : Shape := ⟨2, ![32, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x8 .f32) (main_arg15 : FVec F S8 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x8 .f32 := Host.absf main_arg14
  let main_cst_22 : FVec F S_ .f32 := constant S_ .f32 0x7F800000#32
  let main_v60 : FVec F S32x8 .f32 := broadcastInDim S32x8 ![] bcast_S_S32x8 main_cst_22
  let main_v61 : IVec S32x8 1 := cmpf .olt main_v59 main_v60
  let main_c_23 : IVec S_ 1 := constantI S_ 1 1#1
  let main_v62 : IVec S_ 1 := (fun x v => Host.reduce IntOp.andi x v reducesTo_S32x8_S_d0_1 h_S_) main_v61 main_c_23
  let main_v63 : IVec S_ 1 := andi main_v58 main_v62
  let main_v64 : FVec F S8 .f32 := Host.absf main_arg15
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg9 : FVec F S16 .f32) (main_arg10 : FVec F S16x32 .f32) (main_arg11 : FVec F S32 .f32) (main_arg12 : FVec F S32 .f32) (main_arg13 : FVec F S32 .f32) (main_arg14 : FVec F S32x8 .f32) (main_arg15 : FVec F S8 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x32 .f32 := Host.absf main_arg10
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_v48 main_v49 main_v50

def fn_part1 {F : FTy → Type} [FloatOps F] (main_arg6 : FVec F S32x16 .f32) (main_arg7 : FVec F S16 .f32) (main_arg8 : FVec F S16 .f32) (main_arg9 : FVec F S16 .f32) (main_arg10 : FVec F S16x32 .f32) (main_arg11 : FVec F S32 .f32) (main_arg12 : FVec F S32 .f32) (main_arg13 : FVec F S32 .f32) (main_arg14 : FVec F S32x8 .f32) (main_arg15 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x3200000 32) (main_arg2 : FVec F S3200000 .f32) (main_arg3 : IVec S100000 32) (main_arg4 : FVec F S128x32 .f32) (main_arg5 : FVec F S32 .f32) (main_arg6 : FVec F S32x16 .f32) (main_arg7 : FVec F S16 .f32) (main_arg8 : FVec F S16 .f32) (main_arg9 : FVec F S16 .f32) (main_arg10 : FVec F S16x32 .f32) (main_arg11 : FVec F S32 .f32) (main_arg12 : FVec F S32 .f32) (main_arg13 : FVec F S32 .f32) (main_arg14 : FVec F S32x8 .f32) (main_arg15 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x8 : Shape := ⟨2, ![32, 8]⟩
abbrev S8 : Shape := ⟨1, ![8]⟩
abbrev S100000x32 : Shape := ⟨2, ![100000, 32]⟩
abbrev S10000x128 : Shape := ⟨2, ![10000, 128]⟩
abbrev S10000x32 : Shape := ⟨2, ![10000, 32]⟩
abbrev S1x32 : Shape := ⟨2, ![1, 32]⟩
abbrev S10000 : Shape := ⟨1, ![10000]⟩
abbrev S10000x1 : Shape := ⟨2, ![10000, 1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x32 : Shape := ⟨2, ![5000, 32]⟩
abbrev S5000x16 : Shape := ⟨2, ![5000, 16]⟩
abbrev S3300000x16 : Shape := ⟨2, ![3300000, 16]⟩
abbrev S1x16 : Shape := ⟨2, ![1, 16]⟩
abbrev S5000 : Shape := ⟨1, ![5000]⟩
abbrev S5000x1 : Shape := ⟨2, ![5000, 1]⟩
abbrev S3300000x32 : Shape := ⟨2, ![3300000, 32]⟩
abbrev S64x32 : Shape := ⟨2, ![64, 32]⟩
abbrev S100000x1 : Shape := ⟨2, ![100000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 118
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S128x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16x32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32x8, .f32⟩
  | .hbm, ⟨15, _⟩ => ⟨S8, .f32⟩
  | .hbm, ⟨16, _⟩ => ⟨S100000x32, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S100000, .i32⟩
  | .hbm, ⟨22, _⟩ => ⟨S3300000, .i32⟩
  | .hbm, ⟨23, _⟩ => ⟨S3300000, .i32⟩
  | .hbm, ⟨24, _⟩ => ⟨S_, .f32⟩
  | .hbm, ⟨25, _⟩ => ⟨S100000, .f32⟩
  | .hbm, ⟨26, _⟩ => ⟨S3300000, .f32⟩
  | .hbm, ⟨27, _⟩ => ⟨S_, .f32⟩
  | .hbm, ⟨28, _⟩ => ⟨S100000, .f32⟩
  | .hbm, ⟨29, _⟩ => ⟨S3300000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000, .f32⟩
  | .hbm, ⟨61, _⟩ => ⟨S3300000, .f32⟩
  | .hbm, ⟨62, _⟩ => ⟨S100000x16, .f32⟩
  | .hbm, ⟨63, _⟩ => ⟨S3300000x1, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x16, .f32⟩
  | .hbm, ⟨73, _⟩ => ⟨S3300000x16, .f32⟩
  | .hbm, ⟨74, _⟩ => ⟨S3300000x16, .f32⟩
  | .hbm, ⟨75, _⟩ => ⟨S_, .f32⟩
  | .hbm, ⟨76, _⟩ => ⟨S100000x16, .f32⟩
  | .hbm, ⟨77, _⟩ => ⟨S3300000x1, .i32⟩
  | .hbm, ⟨78, _⟩ => ⟨S100000x16, .f32⟩
  | .hbm, ⟨79, _⟩ => ⟨S100000x16, .f32⟩
  | .hbm, ⟨80, _⟩ => ⟨S100000x32, .f32⟩
  | .hbm, ⟨81, _⟩ => ⟨S3300000x1, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000x32, .f32⟩
  | .hbm, ⟨91, _⟩ => ⟨S3300000x32, .f32⟩
  | .hbm, ⟨92, _⟩ => ⟨S3300000x32, .f32⟩
  | .hbm, ⟨93, _⟩ => ⟨S_, .f32⟩
  | .hbm, ⟨94, _⟩ => ⟨S100000x32, .f32⟩
  | .hbm, ⟨95, _⟩ => ⟨S3300000x1, .i32⟩
  | .hbm, ⟨96, _⟩ => ⟨S100000x32, .f32⟩
  | .hbm, ⟨97, _⟩ => ⟨S100000x32, .f32⟩
  | .hbm, ⟨98, _⟩ => ⟨S_, .f32⟩
  | .hbm, ⟨99, _⟩ => ⟨S64x32, .f32⟩
  | .hbm, ⟨100, _⟩ => ⟨S100000x1, .i32⟩
  | .hbm, ⟨101, _⟩ => ⟨S64x32, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S64, .f32⟩
  | .hbm, ⟨106, _⟩ => ⟨S100000x1, .i32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x32, .f32⟩
  | .hbm, ⟨113, _⟩ => ⟨S64x32, .f32⟩
  | .hbm, ⟨114, _⟩ => ⟨S64x8, .f32⟩
  | .hbm, ⟨115, _⟩ => ⟨S1x8, .f32⟩
  | .hbm, ⟨116, _⟩ => ⟨S64x8, .f32⟩
  | .hbm, ⟨117, _⟩ => ⟨S64x8, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S32, .f32⟩
  | .local _ .vmem, ⟨4, _⟩ => ⟨S10000x32, .f32⟩
  | .local _ .vmem, ⟨5, _⟩ => ⟨S10000x32, .f32⟩
  | .local _ .vmem, ⟨6, _⟩ => ⟨S5000x32, .f32⟩
  | .local _ .vmem, ⟨7, _⟩ => ⟨S5000x32, .f32⟩
  | .local _ .vmem, ⟨8, _⟩ => ⟨S32x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16, .f32⟩
  | .local _ .vmem, ⟨14, _⟩ => ⟨S16, .f32⟩
  | .local _ .vmem, ⟨15, _⟩ => ⟨S16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S16x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S32, .f32⟩
  | .local _ .vmem, ⟨26, _⟩ => ⟨S32, .f32⟩
  | .local _ .vmem, ⟨27, _⟩ => ⟨S32, .f32⟩
  | .local _ .vmem, ⟨28, _⟩ => ⟨S5000x32, .f32⟩
  | .local _ .vmem, ⟨29, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S16x32_S16x32_0_0 : ∀ a, (![0, 0] : Fin 2 → Nat) a + S16x32.size a ≤ S16x32.size a
  h_S16x32 : 0 < S16x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  broadcasts_S1x32_S5000x32 : S1x32.Broadcasts S5000x32
  reduces_S5000x32_S5000 : S5000x32.Reduces [1] S5000
  broadcasts_S5000x1_S5000x32 : S5000x1.Broadcasts S5000x32
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S10000x128_S128x32_S10000x32_1_0_0_1_n_n_wf : DotDims.WF S10000x128 S128x32 S10000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x8_S64x8_1_0_0_1_n_n_wf : DotDims.WF S64x32 S32x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32.size a ≤ S32.size a
  hwx4_1 : ∀ i : grid4.Coords, EltTy.bits .f32 = 32 ∨ (Rect.block (s := S32) S32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S100000x32.size a
  hwx4_4 : ∀ i : grid4.Coords, EltTy.bits .f32 = 32 ∨ (Rect.block (s := S100000x32) S5000x32.size (cc4_transform_4 i) (hinb4_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S5000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x8 : Shape := ⟨2, ![32, 8]⟩
abbrev S8 : Shape := ⟨1, ![8]⟩
abbrev S100000x32 : Shape := ⟨2, ![100000, 32]⟩
abbrev S1x32 : Shape := ⟨2, ![1, 32]⟩
abbrev S_ : Shape := ⟨0, ![]⟩
abbrev S100000x1 : Shape := ⟨2, ![100000, 1]⟩
abbrev S1x3200000 : Shape := ⟨2, ![1, 3200000]⟩
abbrev S3300000 : Shape := ⟨1, ![3300000]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S3300000x32 : Shape := ⟨2, ![3300000, 32]⟩
abbrev S64x32 : Shape := ⟨2, ![64, 32]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 250
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S100000, .i32⟩
  | 4 => ⟨S128x32, .f32⟩
  | 5 => ⟨S32, .f32⟩
  | 6 => ⟨S32x16, .f32⟩
  | 7 => ⟨S16, .f32⟩
  | 8 => ⟨S16, .f32⟩
  | 9 => ⟨S16, .f32⟩
  | 10 => ⟨S16x32, .f32⟩
  | 11 => ⟨S32, .f32⟩
  | 12 => ⟨S32, .f32⟩
  | 13 => ⟨S32, .f32⟩
  | 14 => ⟨S32x8, .f32⟩
  | 15 => ⟨S8, .f32⟩
  | 16 => ⟨S100000x32, .f32⟩
  | 17 => ⟨S1x32, .f32⟩
  | 18 => ⟨S100000x32, .f32⟩
  | 19 => ⟨S100000x32, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x32, .f32⟩
  | 27 => ⟨S100000x32, .f32⟩
  | 28 => ⟨S100000x32, .f32⟩
  | 29 => ⟨S_, .f32⟩
  | 30 => ⟨S100000, .f32⟩
  | 31 => ⟨S100000x1, .f32⟩
  | 32 => ⟨S100000x32, .f32⟩
  | 33 => ⟨S100000x32, .f32⟩
  | 34 => ⟨S1x3200000, .i32⟩
  | 35 => ⟨S3200000, .i32⟩
  | 36 => ⟨S100000, .i32⟩
  | 37 => ⟨S3300000, .i32⟩
  | 38 => ⟨S1x3200000, .i32⟩
  | 39 => ⟨S3200000, .i32⟩
  | 40 => ⟨S100000, .i32⟩
  | 41 => ⟨S3300000, .i32⟩
  | 42 => ⟨S_, .f32⟩
  | 43 => ⟨S100000, .f32⟩
  | 44 => ⟨S3300000, .f32⟩
  | 45 => ⟨S_, .f32⟩
  | 46 => ⟨S100000, .f32⟩
  | 47 => ⟨S3300000x1, .i32⟩
  | 48 => ⟨S100000, .f32⟩
  | 49 => ⟨S_, .f32⟩
  | 50 => ⟨S100000, .f32⟩
  | 51 => ⟨S100000, .i1⟩
  | 52 => ⟨S_, .f32⟩
  | 53 => ⟨S100000, .f32⟩
  | 54 => ⟨S100000, .f32⟩
  | 55 => ⟨S100000, .f32⟩
  | 56 => ⟨S_, .f32⟩
  | 57 => ⟨S_, .f32⟩
  | 58 => ⟨S100000, .f32⟩
  | 59 => ⟨S100000, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000, .f32⟩
  | 69 => ⟨S3300000, .f32⟩
  | 70 => ⟨S_, .i32⟩
  | 71 => ⟨S3300000, .i32⟩
  | 72 => ⟨S3300000, .i1⟩
  | 73 => ⟨S_, .i32⟩
  | 74 => ⟨S3300000, .i32⟩
  | 75 => ⟨S3300000, .i32⟩
  | 76 => ⟨S3300000, .i32⟩
  | 77 => ⟨S3300000x1, .i32⟩
  | 78 => ⟨S3300000, .f32⟩
  | 79 => ⟨S3300000, .f32⟩
  | 80 => ⟨S100000x16, .f32⟩
  | 81 => ⟨S3300000x1, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x16, .f32⟩
  | 91 => ⟨S3300000x16, .f32⟩
  | 92 => ⟨S3300000x16, .f32⟩
  | 93 => ⟨S_, .f32⟩
  | 94 => ⟨S100000x16, .f32⟩
  | 95 => ⟨S3300000x1, .i32⟩
  | 96 => ⟨S100000x16, .f32⟩
  | 97 => ⟨S1x16, .f32⟩
  | 98 => ⟨S100000x16, .f32⟩
  | 99 => ⟨S100000x16, .f32⟩
  | 100 => ⟨S_, .f32⟩
  | 101 => ⟨S100000x16, .f32⟩
  | 102 => ⟨S100000x16, .f32⟩
  | 103 => ⟨S_, .f32⟩
  | 104 => ⟨S100000, .f32⟩
  | 105 => ⟨S100000x1, .f32⟩
  | 106 => ⟨S_, .f32⟩
  | 107 => ⟨S100000x1, .f32⟩
  | 108 => ⟨S100000x1, .f32⟩
  | 109 => ⟨S100000x16, .f32⟩
  | 110 => ⟨S100000x16, .f32⟩
  | 111 => ⟨S100000x16, .f32⟩
  | 112 => ⟨S_, .f32⟩
  | 113 => ⟨S100000, .f32⟩
  | 114 => ⟨S100000x1, .f32⟩
  | 115 => ⟨S_, .f32⟩
  | 116 => ⟨S100000x1, .f32⟩
  | 117 => ⟨S100000x1, .f32⟩
  | 118 => ⟨S100000x16, .f32⟩
  | 119 => ⟨S100000x16, .f32⟩
  | 120 => ⟨S_, .f32⟩
  | 121 => ⟨S100000x1, .f32⟩
  | 122 => ⟨S100000x1, .f32⟩
  | 123 => ⟨S100000x1, .f32⟩
  | 124 => ⟨S100000x16, .f32⟩
  | 125 => ⟨S100000x16, .f32⟩
  | 126 => ⟨S1x16, .f32⟩
  | 127 => ⟨S100000x16, .f32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S1x3200000, .i32⟩
  | 5 => ⟨S3200000, .i32⟩
  | 6 => ⟨S100000, .i32⟩
  | 7 => ⟨S3300000, .i32⟩
  | 8 => ⟨S1x3200000, .i32⟩
  | 9 => ⟨S3200000, .i32⟩
  | 10 => ⟨S100000, .i32⟩
  | 11 => ⟨S3300000, .i32⟩
  | 12 => ⟨S_, .f32⟩
  | 13 => ⟨S100000, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x32, .f32⟩
  | 51 => ⟨S3300000x1, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x32, .f32⟩
  | 61 => ⟨S3300000x32, .f32⟩
  | 62 => ⟨S3300000x32, .f32⟩
  | 63 => ⟨S_, .f32⟩
  | 64 => ⟨S100000x32, .f32⟩
  | 65 => ⟨S3300000x1, .i32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S_, .f32⟩
  | 74 => ⟨S100000, .f32⟩
  | 75 => ⟨S100000x1, .f32⟩
  | 76 => ⟨S_, .f32⟩
  | 77 => ⟨S100000x1, .f32⟩
  | 78 => ⟨S100000x1, .f32⟩
  | 79 => ⟨S100000x32, .f32⟩
  | 80 => ⟨S100000x32, .f32⟩
  | 81 => ⟨S100000x32, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x32, .f32⟩
  | 89 => ⟨S100000x32, .f32⟩
  | 90 => ⟨S_, .f32⟩
  | 91 => ⟨S100000x1, .f32⟩
  | 92 => ⟨S100000x1, .f32⟩
  | 93 => ⟨S100000x1, .f32⟩
  | 94 => ⟨S100000x32, .f32⟩
  | 95 => ⟨S100000x32, .f32⟩
  | 96 => ⟨S1x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S_, .f32⟩
  | 103 => ⟨S64x32, .f32⟩
  | 104 => ⟨S100000x1, .i32⟩
  | 105 => ⟨S64x32, .f32⟩
  | 106 => ⟨S_, .f32⟩
  | 107 => ⟨S100000, .f32⟩
  | 108 => ⟨S_, .f32⟩
  | 109 => ⟨S64, .f32⟩
  | 110 => ⟨S100000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x32, .f32⟩
  | 117 => ⟨S64x32, .f32⟩
  | 118 => ⟨S64x8, .f32⟩
  | 119 => ⟨S1x8, .f32⟩
  | 120 => ⟨S64x8, .f32⟩
  | 121 => ⟨S64x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_v33 : Ref sig .tc := ⟨.hbm, 59, rfl⟩
abbrev main_c : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call1_cst : Ref sig .tc := ⟨.hbm, 100, rfl⟩
abbrev main_call1_v0 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_v101 : Ref sig .tc := ⟨.hbm, 142, rfl⟩
abbrev main_cst_19 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_cst_21 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_22 : Ref sig .tc := ⟨.hbm, 154, rfl⟩
abbrev main_call2_v0 : Ref sig .tc := ⟨.hbm, 155, rfl⟩
abbrev main_call2_v1 : Ref sig .tc := ⟨.hbm, 156, rfl⟩
abbrev main_v110 : Ref sig .tc := ⟨.hbm, 157, rfl⟩
abbrev main_c_23 : Ref sig .tc := ⟨.hbm, 158, rfl⟩
abbrev main_v111 : Ref sig .tc := ⟨.hbm, 159, rfl⟩
abbrev main_v112 : Ref sig .tc := ⟨.hbm, 160, rfl⟩
abbrev main_c_24 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_25 : Ref sig .tc := ⟨.hbm, 168, rfl⟩
abbrev main_v119 : Ref sig .tc := ⟨.hbm, 169, rfl⟩
abbrev main_v120 : Ref sig .tc := ⟨.hbm, 170, rfl⟩
abbrev main_c_26 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_27 : Ref sig .tc := ⟨.hbm, 180, rfl⟩
abbrev main_v129 : Ref sig .tc := ⟨.hbm, 181, rfl⟩
abbrev main_v130 : Ref sig .tc := ⟨.hbm, 182, rfl⟩
abbrev main_c_28 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_29 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_call3_cst : Ref sig .tc := ⟨.hbm, 198, rfl⟩
abbrev main_call3_v0 : Ref sig .tc := ⟨.hbm, 199, rfl⟩
abbrev main_v144 : Ref sig .tc := ⟨.hbm, 200, rfl⟩
abbrev main_cst_30 : Ref sig .tc := ⟨.hbm, 201, rfl⟩
abbrev main_v145 : Ref sig .tc := ⟨.hbm, 202, rfl⟩
abbrev main_v146 : Ref sig .tc := ⟨.hbm, 203, rfl⟩
abbrev main_cst_31 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_32 : Ref sig .tc := ⟨.hbm, 210, rfl⟩
abbrev main_v152 : Ref sig .tc := ⟨.hbm, 211, rfl⟩
abbrev main_v153 : Ref sig .tc := ⟨.hbm, 212, rfl⟩
abbrev main_cst_33 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_34 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_cst_35 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_36 : Ref sig .tc := ⟨.hbm, 234, rfl⟩
abbrev main_v172 : Ref sig .tc := ⟨.hbm, 235, rfl⟩
abbrev main_cst_37 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_cst_38 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x8_S64x8_1_0_0_1_n_n_wf : DotDims.WF S64x32 S32x8 S64x8 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf

class Facts : Prop extends Facts₀ where

variable [Facts]
-- ==== Proof.KernelRun.lean ====
/-
  The idealized kernel's whole run with its two result arrays NAMED.  The program is five pipelined regions among
  stretches of host operations; the contents of every buffer at each boundary are a fold from the launch memory
  (a stretch applies its operations; a region leaves each of its arrays at what its write-backs fold to and every
  other buffer alone).  Every weakly fair execution terminates without a fault, and in the final state the node
  features (first result) and the pooled logits (second result) are the last boundary's contents at those two
  buffers, while the sixteen argument arrays are as launched.
-/
import proofs.«106738_j23158463660764_2_alg».proof.Proof.Gen.KernelIdeal.Frame

set_option maxRecDepth 16384

noncomputable section

namespace Cert.Bridge.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eleven segments, the final state read at every unscoped buffer: the two results at the last
    boundary's contents, each argument walked back through the fold to the launch memory. -/
theorem run_named : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)), h c _ (mem_uc main_v80 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.Bridge.KernelRun

end
-- ==== Proof.RegionsAsOps.lean ====
/-
  Each pipelined region of the idealized kernel acts on the core's buffers exactly like ONE host operation: it leaves
  its output array at a function of its input arrays (what the grid's write-backs fold to, given as a hypothesis
  here and proved per region elsewhere), its input arrays as it found them (an input window is only read), and every
  other buffer alone.  So the buffer contents at the end of the whole program are the contents after a straight line
  of host operations: the program's own, with one operation standing for each region.
-/
import proofs.«106738_j23158463660764_2_alg».proof.Proof.Gen.KernelIdeal.Frame

set_option maxRecDepth 16384

noncomputable section

namespace Cert.Bridge.RegionsAsOps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The contents after two lines run one after the other are the contents after their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- Region 0 as one operation: `main_v0` from main_arg0, main_arg4, main_arg5. -/
theorem region0_as_op (R : main_arg0.ty.Contents (Elt F) → main_arg4.ty.Contents (Elt F) → main_arg5.ty.Contents (Elt F) → main_v0.ty.Contents (Elt F))
    (hfin : ∀ c, (dat0 (V0 m ρ) c).arrAt 3 cfg0.N = R (W0 m ρ c (Proc.devRef .tc main_arg0)) (W0 m ρ c (Proc.devRef .tc main_arg4)) (W0 m ρ c (Proc.devRef .tc main_arg5))) (c : Dev nD) :
    W1 m ρ c = (StableHlo.ternary main_arg0 main_arg4 main_arg5 main_v0 R).result (W0 m ρ c) := by
  funext b
  by_cases hb : ∃ w, Proc.devRef .tc (Pipeline.arrRef spec0 w) = b
  swap
  · have e : W1 m ρ c b = W0 m ρ c b := by unfold W1 Pipeline.withArrays; rw [dif_neg hb]
    rw [e]
    exact (HloOp.result_of_not_mem _ _ fun h => hb ⟨3, (Finset.mem_singleton.mp h).symm⟩).symm
  obtain ⟨⟨k, hk⟩, rfl⟩ := hb
  rw [W1_arr]
  have hk' : k < 4 := hk
  rcases k with _ | _ | _ | _ | k
  · exact (((dat0 (V0 m ρ) c).arrAt_in 0 rfl _).trans (A_eq0 (V0 m ρ) c 0)).trans
      (StableHlo.ternary_result_ne (c := main_arg0) (a := main_arg4) (b := main_arg5) (y := main_v0) R _ _ _ _ (W0 m ρ c) (by decide)).symm
  · exact (((dat0 (V0 m ρ) c).arrAt_in 1 rfl _).trans (A_eq0 (V0 m ρ) c 1)).trans
      (StableHlo.ternary_result_ne (c := main_arg0) (a := main_arg4) (b := main_arg5) (y := main_v0) R _ _ _ _ (W0 m ρ c) (by decide)).symm
  · exact (((dat0 (V0 m ρ) c).arrAt_in 2 rfl _).trans (A_eq0 (V0 m ρ) c 2)).trans
      (StableHlo.ternary_result_ne (c := main_arg0) (a := main_arg4) (b := main_arg5) (y := main_v0) R _ _ _ _ (W0 m ρ c) (by decide)).symm
  · exact (hfin c).trans (StableHlo.ternary_result main_arg0 main_arg4 main_arg5 main_v0 R _ _ _ _ (W0 m ρ c)).symm
  · omega

/-- Region 1 as one operation: `main_v35` from main_v0, main_arg6. -/
theorem region1_as_op (R : main_v0.ty.Contents (Elt F) → main_arg6.ty.Contents (Elt F) → main_v35.ty.Contents (Elt F))
    (hfin : ∀ c, (dat1 (V4 m ρ) c).arrAt 2 cfg1.N = R (W4 m ρ c (Proc.devRef .tc main_v0)) (W4 m ρ c (Proc.devRef .tc main_arg6))) (c : Dev nD) :
    W5 m ρ c = (StableHlo.binary main_v0 main_arg6 main_v35 R).result (W4 m ρ c) := by
  funext b
  by_cases hb : ∃ w, Proc.devRef .tc (Pipeline.arrRef spec1 w) = b
  swap
  · have e : W5 m ρ c b = W4 m ρ c b := by unfold W5 Pipeline.withArrays; rw [dif_neg hb]
    rw [e]
    exact (HloOp.result_of_not_mem _ _ fun h => hb ⟨2, (Finset.mem_singleton.mp h).symm⟩).symm
  obtain ⟨⟨k, hk⟩, rfl⟩ := hb
  rw [W5_arr]
  have hk' : k < 3 := hk
  rcases k with _ | _ | _ | k
  · exact (((dat1 (V4 m ρ) c).arrAt_in 0 rfl _).trans (A_eq1 (V4 m ρ) c 0)).trans
      (StableHlo.binary_result_ne (a := main_v0) (b := main_arg6) (y := main_v35) R _ _ _ (W4 m ρ c) (by decide)).symm
  · exact (((dat1 (V4 m ρ) c).arrAt_in 1 rfl _).trans (A_eq1 (V4 m ρ) c 1)).trans
      (StableHlo.binary_result_ne (a := main_v0) (b := main_arg6) (y := main_v35) R _ _ _ (W4 m ρ c) (by decide)).symm
  · exact (hfin c).trans (StableHlo.binary_result main_v0 main_arg6 main_v35 R _ _ _ (W4 m ρ c)).symm
  · omega

/-- Region 2 as one operation: `main_v49` from main_v48, main_arg7, main_arg8, main_arg9. -/
theorem region2_as_op (R : main_v48.ty.Contents (Elt F) → main_arg7.ty.Contents (Elt F) → main_arg8.ty.Contents (Elt F) → main_arg9.ty.Contents (Elt F) → main_v49.ty.Contents (Elt F))
    (hfin : ∀ c, (dat2 (V6 m ρ) c).arrAt 4 cfg2.N = R (W6 m ρ c (Proc.devRef .tc main_v48)) (W6 m ρ c (Proc.devRef .tc main_arg7)) (W6 m ρ c (Proc.devRef .tc main_arg8)) (W6 m ρ c (Proc.devRef .tc main_arg9))) (c : Dev nD) :
    W7 m ρ c = (StableHlo.quaternary main_v48 main_arg7 main_arg8 main_arg9 main_v49 R).result (W6 m ρ c) := by
  funext b
  by_cases hb : ∃ w, Proc.devRef .tc (Pipeline.arrRef spec2 w) = b
  swap
  · have e : W7 m ρ c b = W6 m ρ c b := by unfold W7 Pipeline.withArrays; rw [dif_neg hb]
    rw [e]
    exact (HloOp.result_of_not_mem _ _ fun h => hb ⟨4, (Finset.mem_singleton.mp h).symm⟩).symm
  obtain ⟨⟨k, hk⟩, rfl⟩ := hb
  rw [W7_arr]
  have hk' : k < 5 := hk
  rcases k with _ | _ | _ | _ | _ | k
  · exact (((dat2 (V6 m ρ) c).arrAt_in 0 rfl _).trans (A_eq2 (V6 m ρ) c 0)).trans
      (StableHlo.quaternary_result_ne (a := main_v48) (b := main_arg7) (c := main_arg8) (e := main_arg9) (y := main_v49) R _ _ _ _ _ (W6 m ρ c) (by decide)).symm
  · exact (((dat2 (V6 m ρ) c).arrAt_in 1 rfl _).trans (A_eq2 (V6 m ρ) c 1)).trans
      (StableHlo.quaternary_result_ne (a := main_v48) (b := main_arg7) (c := main_arg8) (e := main_arg9) (y := main_v49) R _ _ _ _ _ (W6 m ρ c) (by decide)).symm
  · exact (((dat2 (V6 m ρ) c).arrAt_in 2 rfl _).trans (A_eq2 (V6 m ρ) c 2)).trans
      (StableHlo.quaternary_result_ne (a := main_v48) (b := main_arg7) (c := main_arg8) (e := main_arg9) (y := main_v49) R _ _ _ _ _ (W6 m ρ c) (by decide)).symm
  · exact (((dat2 (V6 m ρ) c).arrAt_in 3 rfl _).trans (A_eq2 (V6 m ρ) c 3)).trans
      (StableHlo.quaternary_result_ne (a := main_v48) (b := main_arg7) (c := main_arg8) (e := main_arg9) (y := main_v49) R _ _ _ _ _ (W6 m ρ c) (by decide)).symm
  · exact (hfin c).trans (StableHlo.quaternary_result main_v48 main_arg7 main_arg8 main_arg9 main_v49 R _ _ _ _ _ (W6 m ρ c)).symm
  · omega

/-- Region 3 as one operation: `main_v50` from main_v49, main_arg10. -/
theorem region3_as_op (R : main_v49.ty.Contents (Elt F) → main_arg10.ty.Contents (Elt F) → main_v50.ty.Contents (Elt F))
    (hfin : ∀ c, (dat3 (V7 m ρ) c).arrAt 2 cfg3.N = R (W7 m ρ c (Proc.devRef .tc main_v49)) (W7 m ρ c (Proc.devRef .tc main_arg10))) (c : Dev nD) :
    W8 m ρ c = (StableHlo.binary main_v49 main_arg10 main_v50 R).result (W7 m ρ c) := by
  funext b
  by_cases hb : ∃ w, Proc.devRef .tc (Pipeline.arrRef spec3 w) = b
  swap
  · have e : W8 m ρ c b = W7 m ρ c b := by unfold W8 Pipeline.withArrays; rw [dif_neg hb]
    rw [e]
    exact (HloOp.result_of_not_mem _ _ fun h => hb ⟨2, (Finset.mem_singleton.mp h).symm⟩).symm
  obtain ⟨⟨k, hk⟩, rfl⟩ := hb
  rw [W8_arr]
  have hk' : k < 3 := hk
  rcases k with _ | _ | _ | k
  · exact (((dat3 (V7 m ρ) c).arrAt_in 0 rfl _).trans (A_eq3 (V7 m ρ) c 0)).trans
      (StableHlo.binary_result_ne (a := main_v49) (b := main_arg10) (y := main_v50) R _ _ _ (W7 m ρ c) (by decide)).symm
  · exact (((dat3 (V7 m ρ) c).arrAt_in 1 rfl _).trans (A_eq3 (V7 m ρ) c 1)).trans
      (StableHlo.binary_result_ne (a := main_v49) (b := main_arg10) (y := main_v50) R _ _ _ (W7 m ρ c) (by decide)).symm
  · exact (hfin c).trans (StableHlo.binary_result main_v49 main_arg10 main_v50 R _ _ _ (W7 m ρ c)).symm
  · omega

/-- Region 4 as one operation: `main_v64` from main_v63, main_arg11, main_arg12, main_arg13. -/
theorem region4_as_op (R : main_v63.ty.Contents (Elt F) → main_arg11.ty.Contents (Elt F) → main_arg12.ty.Contents (Elt F) → main_arg13.ty.Contents (Elt F) → main_v64.ty.Contents (Elt F))
    (hfin : ∀ c, (dat4 (V9 m ρ) c).arrAt 4 cfg4.N = R (W9 m ρ c (Proc.devRef .tc main_v63)) (W9 m ρ c (Proc.devRef .tc main_arg11)) (W9 m ρ c (Proc.devRef .tc main_arg12)) (W9 m ρ c (Proc.devRef .tc main_arg13))) (c : Dev nD) :
    W10 m ρ c = (StableHlo.quaternary main_v63 main_arg11 main_arg12 main_arg13 main_v64 R).result (W9 m ρ c) := by
  funext b
  by_cases hb : ∃ w, Proc.devRef .tc (Pipeline.arrRef spec4 w) = b
  swap
  · have e : W10 m ρ c b = W9 m ρ c b := by unfold W10 Pipeline.withArrays; rw [dif_neg hb]
    rw [e]
    exact (HloOp.result_of_not_mem _ _ fun h => hb ⟨4, (Finset.mem_singleton.mp h).symm⟩).symm
  obtain ⟨⟨k, hk⟩, rfl⟩ := hb
  rw [W10_arr]
  have hk' : k < 5 := hk
  rcases k with _ | _ | _ | _ | _ | k
  · exact (((dat4 (V9 m ρ) c).arrAt_in 0 rfl _).trans (A_eq4 (V9 m ρ) c 0)).trans
      (StableHlo.quaternary_result_ne (a := main_v63) (b := main_arg11) (c := main_arg12) (e := main_arg13) (y := main_v64) R _ _ _ _ _ (W9 m ρ c) (by decide)).symm
  · exact (((dat4 (V9 m ρ) c).arrAt_in 1 rfl _).trans (A_eq4 (V9 m ρ) c 1)).trans
      (StableHlo.quaternary_result_ne (a := main_v63) (b := main_arg11) (c := main_arg12) (e := main_arg13) (y := main_v64) R _ _ _ _ _ (W9 m ρ c) (by decide)).symm
  · exact (((dat4 (V9 m ρ) c).arrAt_in 2 rfl _).trans (A_eq4 (V9 m ρ) c 2)).trans
      (StableHlo.quaternary_result_ne (a := main_v63) (b := main_arg11) (c := main_arg12) (e := main_arg13) (y := main_v64) R _ _ _ _ _ (W9 m ρ c) (by decide)).symm
  · exact (((dat4 (V9 m ρ) c).arrAt_in 3 rfl _).trans (A_eq4 (V9 m ρ) c 3)).trans
      (StableHlo.quaternary_result_ne (a := main_v63) (b := main_arg11) (c := main_arg12) (e := main_arg13) (y := main_v64) R _ _ _ _ _ (W9 m ρ c) (by decide)).symm
  · exact (hfin c).trans (StableHlo.quaternary_result main_v63 main_arg11 main_arg12 main_arg13 main_v64 R _ _ _ _ _ (W9 m ρ c)).symm
  · omega

end Cert.Bridge.RegionsAsOps

end
-- ==== Proof.KernelLine.lean ====
/-
  The idealized kernel as ONE straight line of host operations.  With one operation standing for each pipelined
  region (its output array a function of its input arrays), the buffer contents when the program returns are the
  contents after the line: the attention softmax, the edge normalisation, the first graph convolution (dense layer,
  gather–scale–scatter, bias · relu · layer norm), the second one, and the mean pool with its final dense layer.
-/
import proofs.«106738_j23158463660764_2_alg».proof.Proof.RegionsAsOps

set_option maxRecDepth 16384

noncomputable section

namespace Cert.Bridge.KernelLine

open Idealize.ShloMosaic Idealize.ShloMosaic.TcCoe Idealize.SL.Sem
open Cert.KernelIdeal Cert.KernelIdeal.Gen Cert.Bridge.RegionsAsOps

variable {F : FTy → Type} [FloatOps F]
variable (m : (ℓ : Loc nD τ sig) → Buf (Elt F) ℓ) (ρ : Dev nD → PrngReg)
variable (R0 : main_arg0.ty.Contents (Elt F) → main_arg4.ty.Contents (Elt F) → main_arg5.ty.Contents (Elt F) → main_v0.ty.Contents (Elt F))
  (R1 : main_v0.ty.Contents (Elt F) → main_arg6.ty.Contents (Elt F) → main_v35.ty.Contents (Elt F))
  (R2 : main_v48.ty.Contents (Elt F) → main_arg7.ty.Contents (Elt F) → main_arg8.ty.Contents (Elt F) → main_arg9.ty.Contents (Elt F) → main_v49.ty.Contents (Elt F))
  (R3 : main_v49.ty.Contents (Elt F) → main_arg10.ty.Contents (Elt F) → main_v50.ty.Contents (Elt F))
  (R4 : main_v63.ty.Contents (Elt F) → main_arg11.ty.Contents (Elt F) → main_arg12.ty.Contents (Elt F) → main_arg13.ty.Contents (Elt F) → main_v64.ty.Contents (Elt F))

/-- The program's host operations in order, one operation standing for each region. -/
def line : List (HloOp τ sig (Elt F)) :=
  StableHlo.ternary main_arg0 main_arg4 main_arg5 main_v0 R0 :: (hostOps1 ++ (hostOps1_1 ++ (hostOps1_2 ++
    (StableHlo.binary main_v0 main_arg6 main_v35 R1 :: (hostOps2 ++
      (StableHlo.quaternary main_v48 main_arg7 main_arg8 main_arg9 main_v49 R2 :: StableHlo.binary main_v49 main_arg10 main_v50 R3 :: (hostOps4 ++
        (StableHlo.quaternary main_v63 main_arg11 main_arg12 main_arg13 main_v64 R4 :: hostOps5))))))))

/-- The last boundary's contents are the contents after the line, from the launch memory. -/
theorem end_eq_after_line
    (h0 : ∀ c, (dat0 (V0 m ρ) c).arrAt 3 cfg0.N = R0 (W0 m ρ c (Proc.devRef .tc main_arg0)) (W0 m ρ c (Proc.devRef .tc main_arg4)) (W0 m ρ c (Proc.devRef .tc main_arg5)))
    (h1 : ∀ c, (dat1 (V4 m ρ) c).arrAt 2 cfg1.N = R1 (W4 m ρ c (Proc.devRef .tc main_v0)) (W4 m ρ c (Proc.devRef .tc main_arg6)))
    (h2 : ∀ c, (dat2 (V6 m ρ) c).arrAt 4 cfg2.N = R2 (W6 m ρ c (Proc.devRef .tc main_v48)) (W6 m ρ c (Proc.devRef .tc main_arg7)) (W6 m ρ c (Proc.devRef .tc main_arg8)) (W6 m ρ c (Proc.devRef .tc main_arg9)))
    (h3 : ∀ c, (dat3 (V7 m ρ) c).arrAt 2 cfg3.N = R3 (W7 m ρ c (Proc.devRef .tc main_v49)) (W7 m ρ c (Proc.devRef .tc main_arg10)))
    (h4 : ∀ c, (dat4 (V9 m ρ) c).arrAt 4 cfg4.N = R4 (W9 m ρ c (Proc.devRef .tc main_v63)) (W9 m ρ c (Proc.devRef .tc main_arg11)) (W9 m ρ c (Proc.devRef .tc main_arg12)) (W9 m ρ c (Proc.devRef .tc main_arg13)))
    (c : Dev nD) :
    W11 m ρ c = StableHlo.after (line R0 R1 R2 R3 R4) (W0 m ρ c) := by
  unfold line
  conv_rhs =>
    rw [StableHlo.after_cons, after_append, after_append, after_append, StableHlo.after_cons, after_append,
      StableHlo.after_cons, StableHlo.after_cons, after_append, StableHlo.after_cons]
    rw [← region0_as_op m ρ R0 h0 c, ← region1_as_op m ρ R1 h1 c, ← region2_as_op m ρ R2 h2 c,
      ← region3_as_op m ρ R3 h3 c, ← region4_as_op m ρ R4 h4 c]

end Cert.Bridge.KernelLine

end
-- ==== Proof.RefStages.lean ====
/-
  The reference's five dense stages as functions of whole arrays, each the reference program's own chain of host
  operations for that stage, operation for operation: the attention softmax of x · W + b over each row; a dense layer
  (one matrix product) at the two widths; and bias · relu · layer norm · gamma + beta over each row at the two widths
  (mean and variance by row sums divided by the width, epsilon added under the reciprocal square root).
-/
import proofs.«106738_j23158463660764_2_alg».proof.Proof.Gen.ReferenceIdeal
import Idealize.ShloMosaic.Lib.StableHlo.Run

set_option maxRecDepth 8192

noncomputable section

namespace Cert.Bridge.RefStages

open Cert.ReferenceIdeal Cert.ReferenceIdeal.Gen Idealize.ShloMosaic Idealize.ShloMosaic.TcCoe Idealize.SL.Sem Idealize.ShloMosaic.StableHlo

variable {F : FTy → Type} [FloatOps F]

/-- softmax over each row of x · w + b (row maximum from −∞, subtract, exponential, divide by the row sum). -/
def softmaxStage (x : (⟨S100000x128, .f32⟩ : BufTy).Contents (Elt F)) (w : (⟨S128x32, .f32⟩ : BufTy).Contents (Elt F)) (b : (⟨S32, .f32⟩ : BufTy).Contents (Elt F)) : (⟨S100000x32, .f32⟩ : BufTy).Contents (Elt F) :=
  (Host.divf (Host.exp (subf (addf (Host.dotGeneral dot_S100000x128_S128x32_S100000x32_1_0_0_1_n_n none x w) (broadcastInDim S100000x32 ![0, 1] bcast_S1x32_S100000x32_0_1 (broadcastInDim S1x32 ![1] bcast_S32_S1x32_1 b))) (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x128_S128x32_S100000x32_1_0_0_1_n_n none x w) (broadcastInDim S100000x32 ![0, 1] bcast_S1x32_S100000x32_0_1 (broadcastInDim S1x32 ![1] bcast_S32_S1x32_1 b))) (constant S_ .f32 0xFF800000#32) reducesTo_S100000x32_S100000_d1 h_S_)))))) (broadcastInDim S100000x32 ![0, 1] bcast_S100000x1_S100000x32_0_1 (broadcastInDim S100000x1 ![0] bcast_S100000_S100000x1_0 (Host.reduceAdd (Host.exp (subf (addf (Host.dotGeneral dot_S100000x128_S128x32_S100000x32_1_0_0_1_n_n none x w) (broadcastInDim S100000x32 ![0, 1] bcast_S1x32_S100000x32_0_1 (broadcastInDim S1x32 ![1] bcast_S32_S1x32_1 b))) (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf (addf (Host.dotGeneral dot_S100000x128_S128x32_S100000x32_1_0_0_1_n_n none x w) (broadcastInDim S100000x32 ![0, 1] bcast_S1x32_S100000x32_0_1 (broadcastInDim S1x32 ![1] bcast_S32_S1x32_1 b))) (constant S_ .f32 0xFF800000#32) reducesTo_S100000x32_S100000_d1 h_S_)))))) (constant S_ .f32 0x00000000#32) reducesTo_S100000x32_S100000_d1 h_S_))))

/-- The first dense layer: a · b, [100000, 32] · [32, 16]. -/
def dense1 (a : (⟨S100000x32, .f32⟩ : BufTy).Contents (Elt F)) (b : (⟨S32x16, .f32⟩ : BufTy).Contents (Elt F)) : (⟨S100000x16, .f32⟩ : BufTy).Contents (Elt F) :=
  Host.dotGeneral dot_S100000x32_S32x16_S100000x16_1_0_0_1_n_n none a b

/-- Layer norm of relu (agg + b) over each row of width 16, times g, plus be. -/
def norm1 (agg : (⟨S100000x16, .f32⟩ : BufTy).Contents (Elt F)) (b g be : (⟨S16, .f32⟩ : BufTy).Contents (Elt F)) : (⟨S100000x16, .f32⟩ : BufTy).Contents (Elt F) :=
  (addf (mulf (mulf (subf (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (broadcastInDim S100000x16 ![0, 1] bcast_S100000x1_S100000x16_0_1 (Host.divf (broadcastInDim S100000x1 ![0] bcast_S100000_S100000x1_0 (Host.reduceAdd (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (constant S_ .f32 0x00000000#32) reducesTo_S100000x16_S100000_d1 h_S_)) (broadcastInDim S100000x1 ![] bcast_S_S100000x1 (constant S_ .f32 0x41800000#32))))) (broadcastInDim S100000x16 ![0, 1] bcast_S100000x1_S100000x16_0_1 (Host.rsqrt (addf (Host.divf (broadcastInDim S100000x1 ![0] bcast_S100000_S100000x1_0 (Host.reduceAdd (mulf (subf (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (broadcastInDim S100000x16 ![0, 1] bcast_S100000x1_S100000x16_0_1 (Host.divf (broadcastInDim S100000x1 ![0] bcast_S100000_S100000x1_0 (Host.reduceAdd (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (constant S_ .f32 0x00000000#32) reducesTo_S100000x16_S100000_d1 h_S_)) (broadcastInDim S100000x1 ![] bcast_S_S100000x1 (constant S_ .f32 0x41800000#32))))) (subf (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (broadcastInDim S100000x16 ![0, 1] bcast_S100000x1_S100000x16_0_1 (Host.divf (broadcastInDim S100000x1 ![0] bcast_S100000_S100000x1_0 (Host.reduceAdd (maximumf (addf agg (broadcastInDim S100000x16 ![0, 1] bcast_S1x16_S100000x16_0_1 (broadcastInDim S1x16 ![1] bcast_S16_S1x16_1 b))) (broadcastInDim S100000x16 ![] bcast_S_S100000x16 (constant S_ .f32 0x00000000#32))) (constant S_ .f32 0x00000000#32) reducesTo_S100000x16_S100000_d1 h_S_)) (broadcastInDim S100000x1 ![] bcast_S_S100000x1 (constant S_ .f32 0x41800000#32)))))) (constant S_ .f32 0x00000000#32) reducesTo_S100000x16_S100000_d1 h_S_)) (broadcastInDim S100000x1 ![] bcast_S_S100000x1 (constant S_ .f32 0x41800000#32))) (broadcastInDim S100000x1 ![] bcast_S_S100000x1 (constant S_ .f32 0x3727C5AC#32)))))) (broadcastInDim S100000x16 ![0, 1] bcast_S1x16_S100000x16_0_1 (broadcastInDim S1x16 ![1] bcast_S16_S1x16_1 g))) (broadcastInDim S100000x16 ![0, 1] bcast_S1x16_S100000x16_0_1 (broadcastInDim S1x16 ![1] bcast_S16_S1x16_1 be)))

/-- The second dense layer: a · b, [100000, 16] · [16, 32]. -/
def dense2 (a : (⟨S100000x16, .f32⟩ : BufTy).Contents (Elt F)) (b : (⟨S16x32, .f32⟩ : BufTy).Contents (Elt F)) : (⟨S100000x32, .f32⟩ : BufTy).Contents (Elt F) :=
  Host.dotGeneral dot_S100000x16_S16x32_S100000x32_1_0_0_1_n_n none a b

/-- Layer norm of relu (agg + b) over each row of width 32, times g, plus be. -/
def norm2 (agg : (⟨S100000x32, .f32⟩ : BufTy).Contents (Elt F)) (b g be : (⟨S32, .f32⟩ : BufTy).Contents (Elt F)) : (⟨S100000x32, .f32⟩ : BufTy).Contents (Elt F) :=
  addf (mulf (mulf (subf (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (broadcastInDim S100000x32 ![0, 1] bcast_S100000x1_S100000x32_0_1 (Host.divf (broadcastInDim S100000x1 ![0] bcast_S100000_S100000x1_0 (Host.reduceAdd (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (constant S_ .f32 0x00000000#32) reducesTo_S100000x32_S100000_d1 h_S_)) (broadcastInDim S100000x1 ![] bcast_S_S100000x1 (constant S_ .f32 0x42000000#32))))) (broadcastInDim S100000x32 ![0, 1] bcast_S100000x1_S100000x32_0_1 (Host.rsqrt (addf (Host.divf (broadcastInDim S100000x1 ![0] bcast_S100000_S100000x1_0 (Host.reduceAdd (mulf (subf (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (broadcastInDim S100000x32 ![0, 1] bcast_S100000x1_S100000x32_0_1 (Host.divf (broadcastInDim S100000x1 ![0] bcast_S100000_S100000x1_0 (Host.reduceAdd (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (constant S_ .f32 0x00000000#32) reducesTo_S100000x32_S100000_d1 h_S_)) (broadcastInDim S100000x1 ![] bcast_S_S100000x1 (constant S_ .f32 0x42000000#32))))) (subf (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (broadcastInDim S100000x32 ![0, 1] bcast_S100000x1_S100000x32_0_1 (Host.divf (broadcastInDim S100000x1 ![0] bcast_S100000_S100000x1_0 (Host.reduceAdd (maximumf (addf agg (broadcastInDim S100000x32 ![0, 1] bcast_S1x32_S100000x32_0_1 (broadcastInDim S1x32 ![1] bcast_S32_S1x32_1 b))) (broadcastInDim S100000x32 ![] bcast_S_S100000x32 (constant S_ .f32 0x00000000#32))) (constant S_ .f32 0x00000000#32) reducesTo_S100000x32_S100000_d1 h_S_)) (broadcastInDim S100000x1 ![] bcast_S_S100000x1 (constant S_ .f32 0x42000000#32)))))) (constant S_ .f32 0x00000000#32) reducesTo_S100000x32_S100000_d1 h_S_)) (broadcastInDim S100000x1 ![] bcast_S_S100000x1 (constant S_ .f32 0x42000000#32))) (broadcastInDim S100000x1 ![] bcast_S_S100000x1 (constant S_ .f32 0x3727C5AC#32)))))) (broadcastInDim S100000x32 ![0, 1] bcast_S1x32_S100000x32_0_1 (broadcastInDim S1x32 ![1] bcast_S32_S1x32_1 g))) (broadcastInDim S100000x32 ![0, 1] bcast_S1x32_S100000x32_0_1 (broadcastInDim S1x32 ![1] bcast_S32_S1x32_1 be))

end Cert.Bridge.RefStages

end
-- ==== Proof.LineValue.lean ====
/-
  The straight line of host operations that the idealized kernel is — with the reference's own stage standing for each
  region — evaluated at the two result buffers from the launch memory: operation for operation the reference's
  program, so the contents are, term for term, the reference run's composed terms of the argument arrays (the kernel
  computes the edge normalisation once and shares one index ramp where the reference repeats them: as terms of the
  arguments these are the same terms).  Stated for any float instance: nothing of the arithmetic is opened.
-/
import proofs.«106738_j23158463660764_2_alg».proof.Proof.KernelLine
import proofs.«106738_j23158463660764_2_alg».proof.Proof.RefStages
import proofs.«106738_j23158463660764_2_alg».proof.Proof.Gen.ReferenceIdeal.Run

set_option maxRecDepth 65536

noncomputable section

namespace Cert.Bridge.LineValue

open Idealize.ShloMosaic Idealize.ShloMosaic.TcCoe Idealize.SL.Sem Idealize.ShloMosaic.StableHlo
open Cert.KernelIdeal Cert.KernelIdeal.Gen Cert.Bridge.KernelLine

variable {F : FTy → Type} [FloatOps F]
variable (m : (ℓ : Loc nD τ sig) → Buf (Elt F) ℓ) (ρ : Dev nD → PrngReg)
variable (m' : (ℓ : Loc Cert.ReferenceIdeal.nD Cert.ReferenceIdeal.τ Cert.ReferenceIdeal.sig) → Buf (Elt F) ℓ)
variable (hagree : ∀ c : Dev nD,
        m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15))
include hagree

set_option maxHeartbeats 40000000 in
/-- The node features after the line are the reference's first composed term. -/
theorem out0 (c : Dev nD) :
    Cert.ReferenceIdeal.Value.res_main_v168 m' c =
      StableHlo.after (line (F := F) Cert.Bridge.RefStages.softmaxStage Cert.Bridge.RefStages.dense1 Cert.Bridge.RefStages.norm1 Cert.Bridge.RefStages.dense2 Cert.Bridge.RefStages.norm2) (W0 m ρ c) (Proc.devRef .tc main_v64) := by
  unfold line
  simp only [hostOps1, hostOps1_1, hostOps1_2, hostOps2, hostOps4, hostOps5, List.cons_append, List.nil_append]
  after_results_simp
  unfold Cert.ReferenceIdeal.Value.res_main_v168 Cert.Bridge.RefStages.softmaxStage Cert.Bridge.RefStages.dense1 Cert.Bridge.RefStages.norm1 Cert.Bridge.RefStages.dense2 Cert.Bridge.RefStages.norm2
  rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
  rfl

set_option maxHeartbeats 40000000 in
/-- The pooled logits after the line are the reference's second composed term. -/
theorem out1 (c : Dev nD) :
    Cert.ReferenceIdeal.Value.res_main_v184 m' c =
      StableHlo.after (line (F := F) Cert.Bridge.RefStages.softmaxStage Cert.Bridge.RefStages.dense1 Cert.Bridge.RefStages.norm1 Cert.Bridge.RefStages.dense2 Cert.Bridge.RefStages.norm2) (W0 m ρ c) (Proc.devRef .tc main_v80) := by
  unfold line
  simp only [hostOps1, hostOps1_1, hostOps1_2, hostOps2, hostOps4, hostOps5, List.cons_append, List.nil_append]
  after_results_simp
  unfold Cert.ReferenceIdeal.Value.res_main_v184 Cert.Bridge.RefStages.softmaxStage Cert.Bridge.RefStages.dense1 Cert.Bridge.RefStages.norm1 Cert.Bridge.RefStages.dense2 Cert.Bridge.RefStages.norm2
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  rfl

end Cert.Bridge.LineValue

end
-- ==== Proof.AttnSoftmaxSpec.lean ====
/-
  The attention softmax of one row, as a function of the row's logits, and the whole-array function both programs
  compute: row r of the result is the softmax over the 32 columns of  x[r, :] · W + b.

  The row maximum is carried as ONE expression of the row: the fold of `max` from −∞ over the 32 logits, joined once more
  with −∞ (both programs take that extra maximum). Everything here is over literal index types; no program is imported.
-/
import Idealize.ShloMosaic.PureOps.Ideal.Laws
import Idealize.ShloMosaic.Lib.ValueIdx
import Idealize.ShloMosaic.Lib.ValueLayout

noncomputable section

namespace Cert.Bridge.AttnSoftmax

open Idealize.ShloMosaic Idealize.ShloMosaic.ValueIdx

/-- −∞, as the f32 pattern both programs print for it. -/
abbrev negInf : EReal := Ideal.ofBits .f32 0xFF800000#32

/-- The maximum of a row of 32 logits: the fold of `max` from −∞, and once more against −∞. -/
def rowMax (l : Fin 32 → EReal) : EReal :=
  max negInf ((Finset.univ : Finset (Fin 32)).fold max negInf l)

/-- The shifted exponential of the row's entry `q`. -/
def rowExp (l : Fin 32 → EReal) (q : Fin 32) : EReal := Ideal.exp (l q - rowMax l)

/-- The softmax of the row at column `q`: the shifted exponential over the sum of the row's 32 of them. -/
def softRow (l : Fin 32 → EReal) (q : Fin 32) : EReal :=
  Ideal.div (rowExp l q) (∑ k : Fin 32, rowExp l k)

/-- The logit at column `q` of a row `x` of 128 features: `Σ_k x[k] · W[k, q] + b[q]`. -/
def logit (x : Fin 128 → EReal) (W : (⟨2, ![128, 32]⟩ : Shape).Idx → EReal) (b : (⟨1, ![32]⟩ : Shape).Idx → EReal)
    (q : Fin 32) : EReal :=
  (∑ k : Fin 128, x k * W (ix2 k q)) + b (ix1 q)

/-- The result at row `r`, column `q`, from the whole arrays. -/
def soft (X : (⟨2, ![100000, 128]⟩ : Shape).Idx → EReal) (W : (⟨2, ![128, 32]⟩ : Shape).Idx → EReal)
    (b : (⟨1, ![32]⟩ : Shape).Idx → EReal) (r : Fin 100000) (q : Fin 32) : EReal :=
  softRow (logit (fun k => X (ix2 r k)) W b) q

/-- A [a] column cast to [a, 1] reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [a, 1] column broadcast to [a, b] reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Bridge.AttnSoftmax

end
-- ==== Proof.AttnSoftmaxKernel.lean ====
/-
  The attention-softmax body read at an index: at row p, column q of its 10000 × 32 block the body's stored value is the
  softmax (AttnSoftmaxSpec `softRow`) of the row's 32 logits  Σ_k x[p,k] · W[k,·] + b[·]  — the narrowing of the two
  matmul operands is the identity on the extended reals, the matrix product into a zero accumulator is the plain sum,
  the lane maximum is the fold of `max` from −∞ over the row, and the lane sum the sum over the row.
-/
import proofs.«106738_j23158463660764_2_alg».proof.Proof.Gen.KernelIdeal.Skeleton
import proofs.«106738_j23158463660764_2_alg».proof.Proof.AttnSoftmaxSpec
import Idealize.ShloMosaic.PureOps.Ideal.Laws
import Idealize.ShloMosaic.Lib.ValueIdx
import Idealize.ShloMosaic.Lib.ValueLayout

noncomputable section

namespace Cert.Bridge.AttnSoftmax

open Idealize.ShloMosaic Idealize.ShloMosaic.ValueIdx
open Cert.KernelIdeal Cert.KernelIdeal.Gen

/-- The row index with the lane coordinate put back: (p, k). -/
theorem lift_row (h : S10000x32.Reduces [1] S10000) (p : Fin 10000) (k : Fin 32) :
    h.lift (ix1 p) k = ix2 p k :=
  funext fun a => Fin.ext (by match a with | ⟨0, _⟩ => rfl | ⟨1, _⟩ => rfl)

/-- The lane maximum of a 10000 × 32 vector at row `p`, joined with −∞: the row's `rowMax`. -/
theorem max_apply (L : FVec Ideal S10000x32 .f32) (hφ : FKind.Formats .f32)
    (hacc : (0xFF800000#32 : BitVec 32) = FKind.maximumf.neutral .f32 hφ) (p : Fin 10000) :
    maximumf (broadcast S10000 (FloatOps.ofBits (F := Ideal) .f32 0xFF800000#32))
        (multiReduction .maximumf [1] S10000 L 0xFF800000#32 reduces_S10000x32_S10000 hφ hacc) (ix1 p)
      = rowMax (fun q' => L (ix2 p q')) := by
  rw [maximumf_apply, broadcast_apply]
  refine congrArg (max _) ?_
  refine (Ideal.multiReduction_maximumf_single L 0xFF800000#32 reduces_S10000x32_S10000 hφ hacc (ix1 p)).trans ?_
  refine congrArg (Finset.fold max _ · Finset.univ) (funext fun k => ?_)
  exact congrArg L (lift_row _ p k)

/-- A per-row value laid down the 32 lanes: the [10000] vector cast to a column and broadcast reads row `p`'s entry. -/
theorem col_apply (v : FVec Ideal S10000 .f32) (p : Fin 10000) (q : Fin 32) :
    broadcastTo S10000x32 (shapeCast S10000x1 v shapeCasts_S10000_S10000x1) broadcasts_S10000x1_S10000x32 (ix2 p q)
      = v (ix1 p) :=
  (broadcastTo_a1_ab_apply _ broadcasts_S10000x1_S10000x32 p q).trans
    (shapeCast_a_a1_apply v shapeCasts_S10000_S10000x1 p 0)

/-- The lane sum of a 10000 × 32 vector at row `p`. -/
theorem sum_apply (E : FVec Ideal S10000x32 .f32) (hφ : FKind.Formats .f32)
    (hacc : (0x00000000#32 : BitVec 32) = FKind.add.neutral .f32 hφ) (p : Fin 10000) :
    multiReduction .add [1] S10000 E 0x00000000#32 reduces_S10000x32_S10000 hφ hacc (ix1 p)
      = ∑ k : Fin 32, E (ix2 p k) := by
  refine (Ideal.multiReduction_add_single E 0x00000000#32 reduces_S10000x32_S10000 hφ hacc (ix1 p)).trans ?_
  exact Finset.sum_congr rfl fun k _ => congrArg E (lift_row _ p k)

/-- The softmax stretch of the body — row maximum, subtract, exponential, row sum, divide — of any 10000 × 32 vector of
    logits, read at (p, q): the softmax of row `p` at column `q`. -/
theorem tail_apply (L : FVec Ideal S10000x32 .f32) (hφ : FKind.Formats .f32)
    (hmax : (0xFF800000#32 : BitVec 32) = FKind.maximumf.neutral .f32 hφ)
    (hadd : (0x00000000#32 : BitVec 32) = FKind.add.neutral .f32 hφ) (p : Fin 10000) (q : Fin 32) :
    divf
        (exp (subf L (broadcastTo S10000x32 (shapeCast S10000x1
          (maximumf (broadcast S10000 (FloatOps.ofBits (F := Ideal) .f32 0xFF800000#32))
            (multiReduction .maximumf [1] S10000 L 0xFF800000#32 reduces_S10000x32_S10000 hφ hmax))
          shapeCasts_S10000_S10000x1) broadcasts_S10000x1_S10000x32)))
        (broadcastTo S10000x32 (shapeCast S10000x1
          (multiReduction .add [1] S10000
            (exp (subf L (broadcastTo S10000x32 (shapeCast S10000x1
              (maximumf (broadcast S10000 (FloatOps.ofBits (F := Ideal) .f32 0xFF800000#32))
                (multiReduction .maximumf [1] S10000 L 0xFF800000#32 reduces_S10000x32_S10000 hφ hmax))
              shapeCasts_S10000_S10000x1) broadcasts_S10000x1_S10000x32)))
            0x00000000#32 reduces_S10000x32_S10000 hφ hadd)
          shapeCasts_S10000_S10000x1) broadcasts_S10000x1_S10000x32)
        (ix2 p q)
      = softRow (fun q' => L (ix2 p q')) q := by
  have hE : ∀ k : Fin 32,
      exp (subf L (broadcastTo S10000x32 (shapeCast S10000x1
          (maximumf (broadcast S10000 (FloatOps.ofBits (F := Ideal) .f32 0xFF800000#32))
            (multiReduction .maximumf [1] S10000 L 0xFF800000#32 reduces_S10000x32_S10000 hφ hmax))
          shapeCasts_S10000_S10000x1) broadcasts_S10000x1_S10000x32)) (ix2 p k)
        = rowExp (fun q' => L (ix2 p q')) k := fun k => by
    show Ideal.exp (L (ix2 p k) - _) = Ideal.exp (L (ix2 p k) - _)
    rw [col_apply, max_apply]
  rw [divf_apply, col_apply, sum_apply, hE q]
  unfold softRow
  exact congrArg (Ideal.div _) (Finset.sum_congr rfl fun k _ => hE k)

/-- The left operand's index at output (i₀, i₁) and contraction coordinate k is (i₀, k); the right operand's is (k, i₁). -/
theorem lhs_0 (i : S10000x32.Idx) (c : dot_S10000x128_S128x32_S10000x32_1_0_0_1_n_n.contr.Idx) :
    (dot_S10000x128_S128x32_S10000x32_1_0_0_1_n_n.lhsIdx i c 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
theorem lhs_1 (i : S10000x32.Idx) (c : dot_S10000x128_S128x32_S10000x32_1_0_0_1_n_n.contr.Idx) :
    (dot_S10000x128_S128x32_S10000x32_1_0_0_1_n_n.lhsIdx i c 1).val = (c ⟨0, by decide⟩).val :=
  dot_S10000x128_S128x32_S10000x32_1_0_0_1_n_n.lhsIdx_val_of_single rfl i c
theorem rhs_0 (i : S10000x32.Idx) (c : dot_S10000x128_S128x32_S10000x32_1_0_0_1_n_n.contr.Idx) :
    (dot_S10000x128_S128x32_S10000x32_1_0_0_1_n_n.rhsIdx i c 0).val = (c ⟨0, by decide⟩).val :=
  dot_S10000x128_S128x32_S10000x32_1_0_0_1_n_n.rhsIdx_val_of_single rfl i c
theorem rhs_1 (i : S10000x32.Idx) (c : dot_S10000x128_S128x32_S10000x32_1_0_0_1_n_n.contr.Idx) :
    (dot_S10000x128_S128x32_S10000x32_1_0_0_1_n_n.rhsIdx i c 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-- The body's matrix product into a zero accumulator, read at (p, q): the sum over the 128 features. -/
theorem matmul_apply (a : FVec Ideal S10000x128 .bf16) (w : FVec Ideal S128x32 .bf16) (p : Fin 10000) (q : Fin 32) :
    matmul dot_S10000x128_S128x32_S10000x32_1_0_0_1_n_n none a w (constant S10000x32 .f32 0x00000000#32) (ix2 p q)
      = ∑ k : Fin 128, a (ix2 p k) * w (ix2 k q) := by
  simp only [matmul]
  rw [Ideal.matmul_constant_zero_apply,
    ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q)
      ((contrEquiv1 dot_S10000x128_S128x32_S10000x32_1_0_0_1_n_n 128 rfl rfl).symm k) = ix2 p k :=
    funext fun ax => Fin.ext (by
      match ax with
      | ⟨0, _⟩ => exact lhs_0 _ _
      | ⟨1, _⟩ => exact (lhs_1 _ _).trans hk)
  have er : dot_S10000x128_S128x32_S10000x32_1_0_0_1_n_n.rhsIdx (ix2 p q)
      ((contrEquiv1 dot_S10000x128_S128x32_S10000x32_1_0_0_1_n_n 128 rfl rfl).symm k) = ix2 k q :=
    funext fun ax => Fin.ext (by
      match ax with
      | ⟨0, _⟩ => exact (rhs_0 _ _).trans hk
      | ⟨1, _⟩ => exact rhs_1 _ _)
  rw [el, er]

/-- The bias laid over the rows: the [32] vector cast to one row and broadcast reads column `q`'s entry. -/
theorem bias_apply (b : FVec Ideal S32 .f32) (p : Fin 10000) (q : Fin 32) :
    broadcastTo S10000x32 (shapeCast S1x32 b shapeCasts_S32_S1x32) broadcasts_S1x32_S10000x32 (ix2 p q) = b (ix1 q) :=
  (broadcastTo_1b_ab_apply _ broadcasts_S1x32_S10000x32 p q).trans (shapeCast_a_1a_apply b shapeCasts_S32_S1x32 0 q)

/-- The body's logits at (p, q): the narrowed operands are the operands, so  Σ_k x[p,k] · W[k,q] + b[q]. -/
theorem logits_apply (x0 : Vec Ideal S10000x128 .f32) (x1 : Vec Ideal S128x32 .f32) (x2 : Vec Ideal S32 .f32)
    (p : Fin 10000) (q : Fin 32) :
    addf (F := Ideal) (matmul dot_S10000x128_S128x32_S10000x32_1_0_0_1_n_n none (truncf (F := Ideal) .bf16 x0 bitsLt_bf16_f32)
          (truncf (F := Ideal) .bf16 x1 bitsLt_bf16_f32) (constant S10000x32 .f32 0x00000000#32))
        (broadcastTo S10000x32 (shapeCast S1x32 x2 shapeCasts_S32_S1x32) broadcasts_S1x32_S10000x32) (ix2 p q)
      = logit (fun k => x0 (ix2 p k)) x1 x2 q := by
  rw [addf_apply, matmul_apply, bias_apply]
  rfl

/-- THE BODY'S STORED VALUE at row `p`, column `q` of its block: the softmax of the row's logits. -/
theorem pay_apply (x0 : Vec Ideal S10000x128 .f32) (x1 : Vec Ideal S128x32 .f32) (x2 : Vec Ideal S32 .f32)
    (p : Fin 10000) (q : Fin 32) :
    k0_pay1 (F := Ideal) x0 x1 x2 (ix2 p q) = softRow (logit (fun k => x0 (ix2 p k)) x1 x2) q := by
  unfold k0_pay1
  refine (tail_apply _ _ _ _ p q).trans ?_
  exact congrArg (softRow · q) (funext fun q' => logits_apply x0 x1 x2 p q')

end Cert.Bridge.AttnSoftmax
end
-- ==== Proof.AttnSoftmaxBlocks.lean ====
/-
  From blocks to the array, for the attention softmax. Point t of the grid of 10 reads rows 10000·t … 10000·t + 9999 of the
  feature array, the whole weight matrix and the whole bias, and writes the same rows of the result; at (p, q) of its
  block the body stores the softmax of the row's logits (AttnSoftmaxKernel), a function of row 10000·t + p of the features
  alone. So every written block is the block of ONE whole-array function, the ten blocks cover the 100000 rows
  (row r lies in block r / 10000), and the result array ends holding that function.
-/
import proofs.«106738_j23158463660764_2_alg».proof.Proof.Gen.KernelIdeal.Frame
import proofs.«106738_j23158463660764_2_alg».proof.Proof.AttnSoftmaxSpec
import proofs.«106738_j23158463660764_2_alg».proof.Proof.AttnSoftmaxKernel
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bridge.AttnSoftmax

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole-array result. -/
abbrev G (X : Vec Ideal S100000x128 .f32) (W : Vec Ideal S128x32 .f32) (b : Vec Ideal S32 .f32) : Vec Ideal S100000x32 .f32 :=
  fun i => soft X W b (i 0) (i 1)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Window 0's block at point `t` is rows 10000·t … 10000·t + 9999 of the feature array. -/
theorem iblk_x_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c (Pipeline.arrRef spec0 0) : Vec Ideal S100000x128 .f32) i := by
  obtain ⟨e0, e1, -⟩ := idx_facts t
  unfold iblk0
  rw [View.read_apply]
  refine congrArg (V c (Pipeline.arrRef spec0 0) : Vec Ideal S100000x128 .f32) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- Window 1's block at every point is the whole weight array. -/
theorem iblk_w_eq (c : Dev nD) (t : Fin cfg0.N) :
    (iblk0 V c 1 t : Vec Ideal S128x32 .f32) = (V c (Pipeline.arrRef spec0 1) : Vec Ideal S128x32 .f32) := by
  obtain ⟨-, -, e0, e1, -⟩ := idx_facts t
  funext y
  unfold iblk0
  rw [View.read_apply]
  refine congrArg (V c (Pipeline.arrRef spec0 1) : Vec Ideal S128x32 .f32) (funext fun a => Fin.ext ?_)
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

/-- Window 2's block at every point is the whole bias vector. -/
theorem iblk_b_eq (c : Dev nD) (t : Fin cfg0.N) :
    (iblk0 V c 2 t : Vec Ideal S32 .f32) = (V c (Pipeline.arrRef spec0 2) : Vec Ideal S32 .f32) := by
  obtain ⟨-, -, -, -, e0, -⟩ := idx_facts t
  funext y
  unfold iblk0
  rw [View.read_apply]
  refine congrArg (V c (Pipeline.arrRef spec0 2) : Vec Ideal S32 .f32) (funext fun a => Fin.ext ?_)
  match a with
  | ⟨0, _⟩ => show win0_2.index t (0 : Fin 1) * 32 + 1 * (y 0).val = (y 0).val; rw [e0]; omega

/-- One point of one block: the body's stored value at (p, q), when the feature block's row `p` is row `r` of the
    whole array, is the whole-array softmax at (r, q). -/
theorem point (x0 : Vec Ideal S10000x128 .f32) (x1 : Vec Ideal S128x32 .f32) (x2 : Vec Ideal S32 .f32)
    (X : Vec Ideal S100000x128 .f32) (p : Fin 10000) (q : Fin 32) (r : Fin 100000)
    (hx : ∀ k : Fin 128, x0 (ix2 p k) = X (ix2 r k)) :
    k0_pay1 (F := Ideal) x0 x1 x2 (ix2 p q) = soft X x1 x2 r q := by
  rw [pay_apply]
  unfold soft
  exact congrArg (fun f => softRow (logit f x1 x2) q) (funext hx)

theorem flushed_eq (c : Dev nD) (t : Fin cfg0.N) :
    (dat0 (F := Ideal) V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x32) hz2, View.ld_unit_zero (S := S32) hz1]
  rw [iblk_w_eq, iblk_b_eq]
  funext j
  obtain ⟨-, -, -, -, -, e0, e1⟩ := idx_facts t
  have hj0 : (j 0).val < 10000 := (j 0).isLt
  have hj1 : (j 1).val < 32 := (j 1).isLt
  have hN : t.val < 10 := by have h := t.isLt; have e : cfg0.N = 10 := N_0; omega
  have r0 : ((((cfg0.win 3).blk t).view.emb j) 0).val = 10000 * t.val + (j 0).val := by
    show win0_3.index t (0 : Fin 2) * 10000 + 1 * (j 0).val = _; rw [e0]; omega
  have r1 : ((((cfg0.win 3).blk t).view.emb j) 1).val = (j 1).val := by
    show win0_3.index t (1 : Fin 2) * 32 + 1 * (j 1).val = _; rw [e1]; omega
  show k0_pay1 (F := Ideal) (iblk0 V c 0 t) (V c (Pipeline.arrRef spec0 1)) (V c (Pipeline.arrRef spec0 2)) ((win0 3).xinj (grid0.coords t) j)
    = G (V c (Pipeline.arrRef spec0 0)) (V c (Pipeline.arrRef spec0 1)) (V c (Pipeline.arrRef spec0 2)) (((cfg0.win 3).blk t).view.emb j)
  have hxi : (win0 3).xinj (grid0.coords t) j = ix2 (⟨(j 0).val, hj0⟩ : Fin 10000) (⟨(j 1).val, hj1⟩ : Fin 32) :=
    funext fun a => Fin.ext (by match a with | ⟨0, _⟩ => rfl | ⟨1, _⟩ => rfl)
  rw [hxi]
  refine (point (iblk0 V c 0 t) (V c (Pipeline.arrRef spec0 1)) (V c (Pipeline.arrRef spec0 2)) (V c (Pipeline.arrRef spec0 0))
    ⟨(j 0).val, hj0⟩ ⟨(j 1).val, hj1⟩ ((((cfg0.win 3).blk t).view.emb j) 0) (fun k => ?_)).trans ?_
  · exact iblk_x_apply V c t _ _ r0 rfl
  · show soft _ _ _ _ _ = soft _ _ _ _ _
    exact congrArg (soft _ _ _ _) (Fin.ext r1.symm)

/-- An index of the result array lies in point `t`'s block iff each coordinate lies in the block's range on its axis. -/
theorem mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v0).slice (win0_3.rect t)).set ↔ _
  rw [View.set_slice_whole, Rect.mem_set_unit]
  exact Iff.rfl

/-- Row `r` of the result lies in the block of point `r / 10000`, which is written back. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  have ht : (i 0).val / 10000 < cfg0.N := by rw [hN]; omega
  obtain ⟨-, -, -, -, -, e0, e1⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 32 ≤ (i 1).val
      ∧ (i 1).val < win0_3.index ⟨(i 0).val / 10000, ht⟩ (1 : Fin 2) * 32 + 32
    rw [e1]; omega

/-- THE RESULT ARRAY after the region: the softmax of every row of  x · W + b  of the arrays the region finds. -/
theorem final_soft (c : Dev nD) :
    (dat0 (F := Ideal) V c).arrAt 3 cfg0.N
      = G (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.Bridge.AttnSoftmax
end
-- ==== Proof.AttnSoftmaxRef.lean ====
/-
  The attention softmax as the reference computes it, read at one entry.

  The reference forms the logits  x · W + b  by one dot_general of the whole arrays and a row
  broadcast of the bias, takes each row's maximum (a maximum-reduce from −∞ over the 32 columns,
  joined once more with −∞), subtracts it, exponentiates, sums each row (an add-reduce from 0)
  and divides. On exact values every one of these operations acts on one row at a time, so entry
  (r, q) of the result is the softmax, at column q, of row r's 32 logits.
-/
import proofs.«106738_j23158463660764_2_alg».proof.Proof.Gen.ReferenceIdeal
import proofs.«106738_j23158463660764_2_alg».proof.Proof.AttnSoftmaxSpec
import Idealize.ShloMosaic.Lib.Pipeline.Value
import Idealize.ShloMosaic.Lib.ValueIdx
import Idealize.ShloMosaic.PureOps.Ideal.Laws

noncomputable section

namespace Cert.Bridge.AttnSoftmaxRef

open Idealize.ShloMosaic Idealize.ShloMosaic.ValueIdx
open Cert.ReferenceIdeal Cert.ReferenceIdeal.Gen
open scoped BigOperators

/-! ## The reference's operations, in its order -/

section Chain

variable {F : FTy → Type} [FloatOps F]

/-- The logits: the dot_general of the [100000,128] features with the [128,32] weight, plus the
    [32] bias broadcast over the rows. -/
def logits (x : (⟨S100000x128, .f32⟩ : BufTy).Contents (Elt F)) (w : (⟨S128x32, .f32⟩ : BufTy).Contents (Elt F))
    (b : (⟨S32, .f32⟩ : BufTy).Contents (Elt F)) : (⟨S100000x32, .f32⟩ : BufTy).Contents (Elt F) :=
  addf (Host.dotGeneral dot_S100000x128_S128x32_S100000x32_1_0_0_1_n_n none x w)
    (broadcastInDim S100000x32 ![0, 1] bcast_S1x32_S100000x32_0_1 (broadcastInDim S1x32 ![1] bcast_S32_S1x32_1 b))

/-- Each row's maximum: the maximum-reduce from −∞ over the columns, joined once more with −∞. -/
def rowMaxVec (l : (⟨S100000x32, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf l (constant S_ .f32 0xFF800000#32) reducesTo_S100000x32_S100000_d1 h_S_)

/-- The exponential of each entry less its row's maximum. -/
def shifted (l : (⟨S100000x32, .f32⟩ : BufTy).Contents (Elt F)) : (⟨S100000x32, .f32⟩ : BufTy).Contents (Elt F) :=
  Host.exp (subf l (broadcastInDim S100000x32 ![0, 1] bcast_S100000x1_S100000x32_0_1
    (broadcastInDim S100000x1 ![0] bcast_S100000_S100000x1_0 (rowMaxVec l))))

/-- Each entry over its row's sum (an add-reduce from 0). -/
def normalized (e : (⟨S100000x32, .f32⟩ : BufTy).Contents (Elt F)) : (⟨S100000x32, .f32⟩ : BufTy).Contents (Elt F) :=
  Host.divf e (broadcastInDim S100000x32 ![0, 1] bcast_S100000x1_S100000x32_0_1
    (broadcastInDim S100000x1 ![0] bcast_S100000_S100000x1_0
      (Host.reduceAdd e (constant S_ .f32 0x00000000#32) reducesTo_S100000x32_S100000_d1 h_S_)))

/-- The reference's attention softmax of the features x, the weight w and the bias b. -/
def R0 (x : (⟨S100000x128, .f32⟩ : BufTy).Contents (Elt F)) (w : (⟨S128x32, .f32⟩ : BufTy).Contents (Elt F))
    (b : (⟨S32, .f32⟩ : BufTy).Contents (Elt F)) : (⟨S100000x32, .f32⟩ : BufTy).Contents (Elt F) :=
  normalized (shifted (logits x w b))

end Chain

/-! ## The broadcasts read at an entry -/

/-- A [32] vector broadcast over the rows of a [100000,32] array reads, at (r, k), its entry k. -/
theorem bcastRow_apply {α : Type} (b : S32.Idx → α) (r : Fin 100000) (k : Fin 32) :
    broadcastInDim S100000x32 ![0, 1] bcast_S1x32_S100000x32_0_1 (broadcastInDim S1x32 ![1] bcast_S32_S1x32_1 b) (ix2 r k)
      = b (ix1 k) := by
  generalize hy : broadcastInDim S1x32 ![1] bcast_S32_S1x32_1 b = y
  refine (broadcastInDim_apply _ bcast_S1x32_S100000x32_0_1 y (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  subst hy
  exact broadcastInDim_apply _ bcast_S32_S1x32_1 b (ix2 (0 : Fin 1) k) (ix1 k) (fun a => match a with
    | ⟨0, _⟩ => by show k.val = if (32 : Nat) = 1 then 0 else k.val; rw [if_neg (by decide)])

/-- A [100000] vector kept as a column and broadcast over the columns of a [100000,32] array
    reads, at (r, k), its entry r. -/
theorem bcastCol_apply {α : Type} (v : S100000.Idx → α) (r : Fin 100000) (k : Fin 32) :
    broadcastInDim S100000x32 ![0, 1] bcast_S100000x1_S100000x32_0_1 (broadcastInDim S100000x1 ![0] bcast_S100000_S100000x1_0 v) (ix2 r k)
      = v (ix1 r) := by
  generalize hy : broadcastInDim S100000x1 ![0] bcast_S100000_S100000x1_0 v = y
  refine (broadcastInDim_apply _ bcast_S100000x1_S100000x32_0_1 y (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  subst hy
  exact broadcastInDim_apply _ bcast_S100000_S100000x1_0 v (ix2 r (0 : Fin 1)) (ix1 r) (fun a => match a with
    | ⟨0, _⟩ => by show r.val = if (100000 : Nat) = 1 then 0 else r.val; rw [if_neg (by decide)])

/-- A scalar broadcast to a [100000] vector reads the scalar everywhere. -/
theorem bcastScalar_apply {α : Type} (s : S_.Idx → α) (r : Fin 100000) :
    broadcastInDim S100000 ![] bcast_S_S100000 s (ix1 r) = s (fun a => a.elim0) :=
  broadcastInDim_apply _ bcast_S_S100000 s (ix1 r) (fun a => a.elim0) (fun a => a.elim0)

/-! ## The dot_general read at an entry -/

theorem dotL0 (i : S100000x32.Idx) (q : dot_S100000x128_S128x32_S100000x32_1_0_0_1_n_n.contr.Idx) :
    (dot_S100000x128_S128x32_S100000x32_1_0_0_1_n_n.lhsIdx i q 0).val = (i 0).val := by
  unfold DotDims.lhsIdx
  rw [dif_neg (show ¬(0 : Fin S100000x128.rank) ∈ dot_S100000x128_S128x32_S100000x32_1_0_0_1_n_n.lhsBatch by decide), dif_pos (show (0 : Fin S100000x128.rank) ∈ dot_S100000x128_S128x32_S100000x32_1_0_0_1_n_n.lhsNonContracting by decide)]
  rfl
theorem dotL1 (i : S100000x32.Idx) (q : dot_S100000x128_S128x32_S100000x32_1_0_0_1_n_n.contr.Idx) :
    (dot_S100000x128_S128x32_S100000x32_1_0_0_1_n_n.lhsIdx i q 1).val = (q ⟨0, by decide⟩).val :=
  dot_S100000x128_S128x32_S100000x32_1_0_0_1_n_n.lhsIdx_val_of_single rfl i q
theorem dotR0 (i : S100000x32.Idx) (q : dot_S100000x128_S128x32_S100000x32_1_0_0_1_n_n.contr.Idx) :
    (dot_S100000x128_S128x32_S100000x32_1_0_0_1_n_n.rhsIdx i q 0).val = (q ⟨0, by decide⟩).val :=
  dot_S100000x128_S128x32_S100000x32_1_0_0_1_n_n.rhsIdx_val_of_single rfl i q
theorem dotR1 (i : S100000x32.Idx) (q : dot_S100000x128_S128x32_S100000x32_1_0_0_1_n_n.contr.Idx) :
    (dot_S100000x128_S128x32_S100000x32_1_0_0_1_n_n.rhsIdx i q 1).val = (i 1).val := by
  unfold DotDims.rhsIdx
  rw [dif_neg (show ¬(1 : Fin S128x32.rank) ∈ dot_S100000x128_S128x32_S100000x32_1_0_0_1_n_n.rhsBatch by decide), dif_pos (show (1 : Fin S128x32.rank) ∈ dot_S100000x128_S128x32_S100000x32_1_0_0_1_n_n.rhsNonContracting by decide)]
  rfl

/-- Entry (r, k) of the product is the sum over the 128 features j of x(r, j) · w(j, k). -/
theorem dot_apply (x : (⟨S100000x128, .f32⟩ : BufTy).Contents (Elt Ideal)) (w : (⟨S128x32, .f32⟩ : BufTy).Contents (Elt Ideal))
    (r : Fin 100000) (k : Fin 32) :
    Host.dotGeneral (F := Ideal) (φ₁ := .f32) (φ₂ := .f32) dot_S100000x128_S128x32_S100000x32_1_0_0_1_n_n none x w (ix2 r k)
      = ∑ j : Fin 128, x (ix2 r j) * w (ix2 j k) := by
  simp only [Host.dotGeneral]
  rw [Ideal.dotGeneral_apply, ← Equiv.sum_comp (ValueIdx.contrEquiv1 dot_S100000x128_S128x32_S100000x32_1_0_0_1_n_n 128 rfl rfl).symm]
  refine Finset.sum_congr rfl fun j _ => ?_
  have hj := ValueIdx.contrEquiv1_symm_val dot_S100000x128_S128x32_S100000x32_1_0_0_1_n_n 128 rfl rfl j
  have el : dot_S100000x128_S128x32_S100000x32_1_0_0_1_n_n.lhsIdx (ix2 r k) ((ValueIdx.contrEquiv1 dot_S100000x128_S128x32_S100000x32_1_0_0_1_n_n 128 rfl rfl).symm j) = ix2 r j := funext fun a => Fin.ext (by
    match a with
    | ⟨0, _⟩ => exact dotL0 _ _
    | ⟨1, _⟩ => exact (dotL1 _ _).trans hj)
  have er : dot_S100000x128_S128x32_S100000x32_1_0_0_1_n_n.rhsIdx (ix2 r k) ((ValueIdx.contrEquiv1 dot_S100000x128_S128x32_S100000x32_1_0_0_1_n_n 128 rfl rfl).symm j) = ix2 j k := funext fun a => Fin.ext (by
    match a with
    | ⟨0, _⟩ => exact (dotR0 _ _).trans hj
    | ⟨1, _⟩ => exact dotR1 _ _)
  rw [el, er]

/-! ## Each stage read at an entry -/

/-- The host's exponential and quotient act entry by entry. -/
theorem hostExp_apply {s : Shape} {φ : FTy} (v : FVec Ideal s φ) (i : s.Idx) : Host.exp v i = Ideal.exp (v i) := rfl
theorem hostDivf_apply {s : Shape} {φ : FTy} (a b : FVec Ideal s φ) (i : s.Idx) :
    Host.divf a b i = Ideal.div (a i) (b i) := rfl

/-- Entry (r, k) of the logits is the logit of row r at column k. -/
theorem logits_apply (x : (⟨S100000x128, .f32⟩ : BufTy).Contents (Elt Ideal)) (w : (⟨S128x32, .f32⟩ : BufTy).Contents (Elt Ideal))
    (b : (⟨S32, .f32⟩ : BufTy).Contents (Elt Ideal)) (r : Fin 100000) (k : Fin 32) :
    logits (F := Ideal) x w b (ix2 r k) = AttnSoftmax.logit (fun j => x (ix2 r j)) w b k := by
  unfold logits AttnSoftmax.logit
  rw [addf_apply, dot_apply, bcastRow_apply]

/-- Entry r of the row maxima is the maximum of row r. -/
theorem rowMaxVec_apply (l : (⟨S100000x32, .f32⟩ : BufTy).Contents (Elt Ideal)) (r : Fin 100000) :
    rowMaxVec (F := Ideal) l (ix1 r) = AttnSoftmax.rowMax (fun k => l (ix2 r k)) := by
  unfold rowMaxVec AttnSoftmax.rowMax
  rw [maximumf_apply, bcastScalar_apply]
  refine congrArg (max _) ?_
  refine (Host.reduce_eq_fold_single (FloatOps.maximumf (F := Ideal) (φ := .f32)) l _
    reducesTo_S100000x32_S100000_d1 (by decide) h_S_ (ix1 r)).trans ?_
  have hl : (l ∘ (by decide : S100000x32.Reduces [1] S100000).lift (ix1 r)) = fun k : Fin 32 => l (ix2 r k) :=
    funext fun k => congrArg l (funext fun a => Fin.ext (by match a with | ⟨0, _⟩ => rfl | ⟨1, _⟩ => rfl))
  rw [hl]
  rfl

/-- Entry (r, k) of the shifted exponentials is that of row r at column k. -/
theorem shifted_apply (l : (⟨S100000x32, .f32⟩ : BufTy).Contents (Elt Ideal)) (r : Fin 100000) (k : Fin 32) :
    shifted (F := Ideal) l (ix2 r k) = AttnSoftmax.rowExp (fun k' => l (ix2 r k')) k := by
  unfold shifted AttnSoftmax.rowExp
  rw [hostExp_apply, subf_apply, bcastCol_apply, rowMaxVec_apply]

/-- Entry (r, q) of the quotient is the entry over the sum of its row. -/
theorem normalized_apply (e : (⟨S100000x32, .f32⟩ : BufTy).Contents (Elt Ideal)) (r : Fin 100000) (q : Fin 32) :
    normalized (F := Ideal) e (ix2 r q) = Ideal.div (e (ix2 r q)) (∑ k : Fin 32, e (ix2 r k)) := by
  unfold normalized
  rw [hostDivf_apply, bcastCol_apply]
  simp only [Host.reduceAdd, Ideal.hostReduceAdd_def]
  rw [Ideal.hostReduceAdd_single reducesTo_S100000x32_S100000_d1 (by decide)]
  refine congrArg (Ideal.div _) ?_
  show Ideal.ofBits .f32 0x00000000#32 + _ = _
  rw [Ideal.ofBits_zero_f32, zero_add]
  refine Finset.sum_congr rfl fun k _ => ?_
  exact congrArg e (funext fun a => Fin.ext (by match a with | ⟨0, _⟩ => rfl | ⟨1, _⟩ => rfl))

/-- Entry (r, q) of the reference's attention softmax is the softmax, at column q, of the 32
    logits of row r. -/
theorem R0_apply (x : (⟨S100000x128, .f32⟩ : BufTy).Contents (Elt Ideal)) (w : (⟨S128x32, .f32⟩ : BufTy).Contents (Elt Ideal))
    (b : (⟨S32, .f32⟩ : BufTy).Contents (Elt Ideal)) (r : Fin 100000) (q : Fin 32) :
    R0 (F := Ideal) x w b (ix2 r q) = AttnSoftmax.soft x w b r q := by
  unfold R0 AttnSoftmax.soft AttnSoftmax.softRow
  rw [normalized_apply]
  have hl : (fun k' : Fin 32 => logits (F := Ideal) x w b (ix2 r k')) = AttnSoftmax.logit (fun j => x (ix2 r j)) w b :=
    funext fun k' => logits_apply x w b r k'
  simp only [shifted_apply, hl]

end Cert.Bridge.AttnSoftmaxRef

end
-- ==== Proof.AttnSoftmax.lean ====
/-
  The attention-softmax region against the reference's chain: the result array of the region ends holding the
  reference's  softmax(x · W + b)  of the three arrays the region finds, as ONE equation of whole arrays. The region's side
  (AttnSoftmaxBlocks) and the reference's chain (AttnSoftmaxRef) are each read, index by index, as the same row-level
  formula (AttnSoftmaxSpec `soft`): the softmax over the 32 columns of row r's logits  Σ_k x[r,k] · W[k,·] + b[·].
-/
import proofs.«106738_j23158463660764_2_alg».proof.Proof.AttnSoftmaxBlocks
import proofs.«106738_j23158463660764_2_alg».proof.Proof.AttnSoftmaxRef

noncomputable section

open Idealize.ShloMosaic Idealize.ShloMosaic.TcCoe Idealize.SL.Sem Idealize.ShloMosaic.ValueIdx
open Idealize.ShloMosaic.Pipeline (Dat)

namespace Cert.Bridge.AttnSoftmax

open Cert.KernelIdeal Cert.KernelIdeal.Gen

variable (V : (c : Dev nD) → (b : Ref sig .tc) → Buf (Elt Ideal) ((c : Thread nD τ).loc b))

/-- THE RESULT ARRAY of the attention-softmax region, whatever the arrays hold when the region is entered, is the
    reference's chain of operations applied to the feature, weight and bias arrays as the region finds them. -/
theorem final (c : Dev nD) :
    (Cert.KernelIdeal.Gen.dat0 (F := Ideal) V c).arrAt 3 Cert.KernelIdeal.cfg0.N
      = Cert.Bridge.AttnSoftmaxRef.R0 (F := Ideal) (V c (Pipeline.arrRef Cert.KernelIdeal.spec0 0))
          (V c (Pipeline.arrRef Cert.KernelIdeal.spec0 1)) (V c (Pipeline.arrRef Cert.KernelIdeal.spec0 2)) := by
  rw [final_soft]
  funext i
  obtain ⟨r, q, rfl⟩ : ∃ (r : Fin 100000) (q : Fin 32), i = ix2 r q := ⟨i 0, i 1, eq_ix2 i⟩
  exact (Cert.Bridge.AttnSoftmaxRef.R0_apply _ _ _ r q).symm

end Cert.Bridge.AttnSoftmax
end
-- ==== Proof.Linear1.lean ====
/-
  The first linear layer, x1 · W1 with x1 of 100000 rows and 32 columns and W1 of 32 rows and
  16 columns.

  The kernel computes it in 20 row blocks of 5000 rows: at grid point t it multiplies rows
  5000·t … 5000·t + 4999 of x1 by the whole of W1 on the matrix unit into a zero accumulator and
  writes the 5000 × 16 result back as block t of the output. The reference computes one
  dot_general of the whole arrays. On exact values both are, entry by entry, the same sum
  ∑ k, x1(r, k) · W1(k, q): the changes of float format around the matrix unit are the identity,
  and entry (p, q) of block t depends only on row 5000·t + p of x1. Every row r lies in block
  r / 5000 and every point writes its block back, so after the region the output array is the
  reference's product of the arrays the region was entered with, whatever those are.
-/
import proofs.«106738_j23158463660764_2_alg».proof.Proof.Gen.KernelIdeal.Frame
import proofs.«106738_j23158463660764_2_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

noncomputable section

namespace Cert.Bridge.Linear1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The reference's stage -/

/-- The first linear layer as the reference computes it: the host's dot_general of the
    [100000,32] row array with the [32,16] weight matrix, contracting the row array's second
    axis with the weight's first. -/
def R (a : (⟨Cert.ReferenceIdeal.S100000x32, .f32⟩ : BufTy).Contents (Elt Ideal))
    (b : (⟨Cert.ReferenceIdeal.S32x16, .f32⟩ : BufTy).Contents (Elt Ideal)) :
    (⟨Cert.ReferenceIdeal.S100000x16, .f32⟩ : BufTy).Contents (Elt Ideal) :=
  Host.dotGeneral (F := Ideal) (φ₁ := .f32) (φ₂ := .f32) Cert.ReferenceIdeal.dot_S100000x32_S32x16_S100000x16_1_0_0_1_n_n none a b

theorem refL0 (i : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x16_S100000x16_1_0_0_1_n_n.lhsBatch by decide), dif_pos (show (0 : Fin Cert.ReferenceIdeal.S100000x32.rank) ∈ Cert.ReferenceIdeal.dot_S100000x32_S32x16_S100000x16_1_0_0_1_n_n.lhsNonContracting by decide)]
  rfl
theorem refL1 (i : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.lhsIdx i q 1).val = (q ⟨0, by decide⟩).val :=
  Cert.ReferenceIdeal.dot_S100000x32_S32x16_S100000x16_1_0_0_1_n_n.lhsIdx_val_of_single rfl i q
theorem refR0 (i : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.rhsIdx i q 0).val = (q ⟨0, by decide⟩).val :=
  Cert.ReferenceIdeal.dot_S100000x32_S32x16_S100000x16_1_0_0_1_n_n.rhsIdx_val_of_single rfl i q
theorem refR1 (i : Cert.ReferenceIdeal.S100000x16.Idx) (q : Cert.ReferenceIdeal.dot_S100000x32_S32x16_S100000x16_1_0_0_1_n_n.contr.Idx) :
    (Cert.ReferenceIdeal.dot_S100000x32_S32x16_S100000x16_1_0_0_1_n_n.rhsIdx i q 1).val = (i 1).val := by
  unfold DotDims.rhsIdx
  rw [dif_neg (show ¬(1 : Fin Cert.ReferenceIdeal.S32x16.rank) ∈ Cert.ReferenceIdeal.dot_S100000x32_S32x16_S100000x16_1_0_0_1_n_n.rhsBatch by decide), dif_pos (show (1 : Fin Cert.ReferenceIdeal.S32x16.rank) ∈ Cert.ReferenceIdeal.dot_S100000x32_S32x16_S100000x16_1_0_0_1_n_n.rhsNonContracting by decide)]
  rfl

/-- Entry (r, q) of the reference's product is the sum over k of a(r, k) · b(k, q). -/
theorem R_apply (a : (⟨Cert.ReferenceIdeal.S100000x32, .f32⟩ : BufTy).Contents (Elt Ideal))
    (b : (⟨Cert.ReferenceIdeal.S32x16, .f32⟩ : BufTy).Contents (Elt Ideal)) (r : Fin 100000) (q : Fin 16) :
    R a b (ix2 r q) = ∑ k : Fin 32, a (ix2 r k) * b (ix2 k q) := by
  unfold R
  simp only [Host.dotGeneral]
  rw [Ideal.dotGeneral_apply, ← Equiv.sum_comp (ValueIdx.contrEquiv1 Cert.ReferenceIdeal.dot_S100000x32_S32x16_S100000x16_1_0_0_1_n_n 32 rfl rfl).symm]
  refine Finset.sum_congr rfl fun k _ => ?_
  have hk := ValueIdx.contrEquiv1_symm_val Cert.ReferenceIdeal.dot_S100000x32_S32x16_S100000x16_1_0_0_1_n_n 32 rfl rfl k
  have el : Cert.ReferenceIdeal.dot_S100000x32_S32x16_S100000x16_1_0_0_1_n_n.lhsIdx (ix2 r q) ((ValueIdx.contrEquiv1 Cert.ReferenceIdeal.dot_S100000x32_S32x16_S100000x16_1_0_0_1_n_n 32 rfl rfl).symm k) = ix2 r k := funext fun a => Fin.ext (by
    match a with
    | ⟨0, _⟩ => exact refL0 _ _
    | ⟨1, _⟩ => exact (refL1 _ _).trans hk)
  have er : Cert.ReferenceIdeal.dot_S100000x32_S32x16_S100000x16_1_0_0_1_n_n.rhsIdx (ix2 r q) ((ValueIdx.contrEquiv1 Cert.ReferenceIdeal.dot_S100000x32_S32x16_S100000x16_1_0_0_1_n_n 32 rfl rfl).symm k) = ix2 k q := funext fun a => Fin.ext (by
    match a with
    | ⟨0, _⟩ => exact (refR0 _ _).trans hk
    | ⟨1, _⟩ => exact refR1 _ _)
  rw [el, er]

/-! ## The kernel's body at an entry -/

theorem kerL0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem kerL1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem kerR0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem kerR1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (p, q) of the block the body stores: the matrix unit's product into a zero
    accumulator, the changes of float format being the identity on exact values, is the sum
    over k of x(p, k) · w(k, q). -/
theorem pay_apply (v0 : Vec Ideal S5000x32 .f32) (v3 : Vec Ideal S32x16 .f32) (p : Fin 5000) (q : Fin 16) :
    k1_pay1 (F := Ideal) v0 v3 (ix2 p q) = ∑ k : Fin 32, v0 (ix2 p k) * v3 (ix2 k q) := by
  unfold k1_pay1
  refine (Ideal.matmul_constant_zero_apply dot_S5000x32_S32x16_S5000x16_1_0_0_1_n_n none _ _ (ix2 p q)).trans ?_
  rw [← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 p q) ((ValueIdx.contrEquiv1 dot_S5000x32_S32x16_S5000x16_1_0_0_1_n_n 32 rfl rfl).symm k) = ix2 p k := funext fun a => Fin.ext (by
    match a with
    | ⟨0, _⟩ => exact kerL0 _ _
    | ⟨1, _⟩ => exact (kerL1 _ _).trans hk)
  have er : dot_S5000x32_S32x16_S5000x16_1_0_0_1_n_n.rhsIdx (ix2 p q) ((ValueIdx.contrEquiv1 dot_S5000x32_S32x16_S5000x16_1_0_0_1_n_n 32 rfl rfl).symm k) = ix2 k q := funext fun a => Fin.ext (by
    match a with
    | ⟨0, _⟩ => exact (kerR0 _ _).trans hk
    | ⟨1, _⟩ => exact kerR1 _ _)
  rw [el, er, truncf_apply, truncf_apply, shapeCast_self]

/-- So an entry of the stored block and an entry of the reference's product are the same sum
    as soon as the block's row p is the array's row r and the two weight operands agree. -/
theorem entry_eq (X : Vec Ideal S5000x32 .f32) (W : Vec Ideal S32x16 .f32)
    (A : (⟨Cert.ReferenceIdeal.S100000x32, .f32⟩ : BufTy).Contents (Elt Ideal))
    (B : (⟨Cert.ReferenceIdeal.S32x16, .f32⟩ : BufTy).Contents (Elt Ideal))
    (p : Fin 5000) (q : Fin 16) (r : Fin 100000)
    (hX : ∀ k : Fin 32, X (ix2 p k) = A (ix2 r k)) (hW : ∀ k : Fin 32, W (ix2 k q) = B (ix2 k q)) :
    k1_pay1 (F := Ideal) X W (ix2 p q) = R A B (ix2 r q) := by
  rw [pay_apply, R_apply]
  exact Finset.sum_congr rfl fun k _ => by rw [hX k, hW k]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block indices at grid point t, decided over the 20 points: the row-block windows
    (input rows, output rows) are at block t of their arrays, the weight window is the whole
    matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the input block at point t is row 5000·t + p of the row array. -/
theorem iblk0_apply (c : Dev nD) (t : Fin cfg1.N) (p : Fin 5000) (k : Fin 32) (r : Fin 100000)
    (hr : r.val = t.val * 5000 + p.val) :
    (iblk1 V c 0 t : Vec Ideal S5000x32 .f32) (ix2 p k)
      = (V c (Pipeline.arrRef spec1 0) : S100000x32.Idx → Elt Ideal .f32) (ix2 r k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

/-- The weight block at every point is the whole weight matrix. -/
theorem iblk1_apply (c : Dev nD) (t : Fin cfg1.N) (k : Fin 32) (q : Fin 16) :
    (iblk1 V c 1 t : Vec Ideal S32x16 .f32) (ix2 k q)
      = (V c (Pipeline.arrRef spec1 1) : S32x16.Idx → Elt Ideal .f32) (ix2 k q) := by
  obtain ⟨-, -, e2, e3, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 32 + 1 * k.val = k.val; rw [e2]; omega
  | ⟨1, _⟩ => show win1_1.index t (1 : Fin 2) * 16 + 1 * q.val = q.val; rw [e3]; omega

/-- The product array: the reference's stage applied to the two arrays as the region finds them. -/
abbrev G (c : Dev nD) : Buf (Elt Ideal) ((cfg1.win 2).arr.view.loc (c.tc : Thread nD τ)) :=
  R (V c (Pipeline.arrRef spec1 0)) (V c (Pipeline.arrRef spec1 1))

/-- What point t writes back is block t (rows 5000·t … 5000·t + 4999) of the product array. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero hz]
  simp only [View.ld_unit_zero (S := S5000x32) hz, View.ld_unit_zero (S := S32x16) hz]
  obtain ⟨-, -, -, -, e4, e5⟩ := idx_facts t
  have hN : cfg1.N = 20 := N_1
  have ht : t.val < 20 := hN ▸ t.isLt
  funext j
  have hj0 : (j 0).val < 5000 := (j 0).isLt
  have hj1 : (j 1).val < 16 := (j 1).isLt
  have hr : t.val * 5000 + (j 0).val < 100000 := by omega
  show k1_pay1 (F := Ideal) (iblk1 V c 0 t) (iblk1 V c 1 t) ((cfg1.win 2).xinj (grid1.coords t) j)
    = G V c (((cfg1.win 2).blk t).view.emb j)
  have hx : (cfg1.win 2).xinj (grid1.coords t) j = ix2 (⟨(j 0).val, hj0⟩ : Fin 5000) (⟨(j 1).val, hj1⟩ : Fin 16) :=
    funext fun a => by match a with | ⟨0, _⟩ => rfl | ⟨1, _⟩ => rfl
  have he : ((cfg1.win 2).blk t).view.emb j = ix2 (⟨t.val * 5000 + (j 0).val, hr⟩ : Fin 100000) (⟨(j 1).val, hj1⟩ : Fin 16) :=
    funext fun a => Fin.ext (by
      match a with
      | ⟨0, _⟩ => show win1_2.index t (0 : Fin 2) * 5000 + 1 * (j 0).val = t.val * 5000 + (j 0).val; rw [e4]; omega
      | ⟨1, _⟩ => show win1_2.index t (1 : Fin 2) * 16 + 1 * (j 1).val = (j 1).val; rw [e5]; omega)
  rw [hx, he]
  exact entry_eq (iblk1 V c 0 t) (iblk1 V c 1 t) (V c (Pipeline.arrRef spec1 0)) (V c (Pipeline.arrRef spec1 1))
    ⟨(j 0).val, hj0⟩ ⟨(j 1).val, hj1⟩ ⟨t.val * 5000 + (j 0).val, hr⟩
    (fun k => iblk0_apply V c t ⟨(j 0).val, hj0⟩ k ⟨t.val * 5000 + (j 0).val, hr⟩ rfl)
    (fun k => iblk1_apply V c t k ⟨(j 1).val, hj1⟩)

/-- An index of the product array is in point t's block iff each coordinate is in the block's
    range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v35).slice (win1_2.rect t)).set ↔ _
  rw [View.set_slice_whole, Rect.mem_set_unit]
  exact Iff.rfl

/-- Row r of the product array lies in the block of point r / 5000, and every point writes back. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 16 ≤ (i 1).val ∧ (i 1).val < win1_2.index t (1 : Fin 2) * 16 + 16; rw [e5]; omega

/-- After the region's run its output array holds the reference's product of the two arrays
    the region was entered with. -/
theorem final (c : Dev nD) :
    (Cert.KernelIdeal.Gen.dat1 (F := Ideal) V c).arrAt 2 Cert.KernelIdeal.cfg1.N
      = R (V c (Pipeline.arrRef Cert.KernelIdeal.spec1 0)) (V c (Pipeline.arrRef Cert.KernelIdeal.spec1 1)) :=
  (dat1 (F := Ideal) V c).arrAt_eq_of_cover 2 (G V c) (fun t _ => flushed_eq V c t) cover

end Blocks

end Cert.Bridge.Linear1

end
-- ==== Proof.LayerNorm1.lean ====
/- The first LayerNorm stage of the forward pass,
   LayerNorm(relu(agg + b1)) * g1 + be1 over rows of width 16. The kernel computes it in row blocks of 5000
   rows; the reference computes it on the whole [100000, 16] array. Both apply the same operations in the same
   order to one row at a time, so each side is read at an index (r, q) as ONE formula of row r of the aggregated
   array and of the three parameter vectors (`lnRow`), and the blocks tile the rows. -/
import proofs.«106738_j23158463660764_2_alg».proof.Proof.Gen.KernelIdeal.Frame
import proofs.«106738_j23158463660764_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.Bridge.LayerNorm1

/-! ## Two column forms of the layout operations, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One row, as a formula -/

/-- The rectified pre-activation of one row: bias added, negative entries cut to zero. -/
def act (row b : Fin 16 → EReal) (k : Fin 16) : EReal := max (row k + b k) (Ideal.ofBits .f32 0x00000000#32)

/-- The mean of 16 entries: their sum divided by 16.0. -/
def mean16 (f : Fin 16 → EReal) : EReal := Ideal.div (∑ k, f k) (Ideal.ofBits .f32 0x41800000#32)

/-- LayerNorm of one row at column `q`: the centred entry times the reciprocal square root of the row's variance
    plus epsilon, scaled by `g` and shifted by `be`. -/
def lnRow (row b g be : Fin 16 → EReal) (q : Fin 16) : EReal :=
  (act row b q - mean16 (act row b))
      * Ideal.rsqrt (mean16 (fun k => (act row b k - mean16 (act row b)) * (act row b k - mean16 (act row b)))
          + Ideal.ofBits .f32 0x3727C5AC#32)
      * g q + be q

/-! ## The kernel's body on one block, stage by stage -/

section Kernel
open Cert.KernelIdeal Cert.KernelIdeal.Gen

/-- A parameter vector laid along every row of the block. -/
def kRow (x : Vec Ideal S16 .f32) : FVec Ideal S5000x16 .f32 :=
  broadcastTo S5000x16 (shapeCast S1x16 x shapeCasts_S16_S1x16) broadcasts_S1x16_S5000x16

/-- A per-row value laid along its row. -/
def kCol (v : FVec Ideal S5000x1 .f32) : FVec Ideal S5000x16 .f32 :=
  broadcastTo S5000x16 v broadcasts_S5000x1_S5000x16

/-- Bias added, then the rectifier. -/
def kRelu (x0 : Vec Ideal S5000x16 .f32) (x1 : Vec Ideal S16 .f32) : FVec Ideal S5000x16 .f32 :=
  maximumf (addf (shapeCast S5000x16 x0 shapeCasts_S5000x16_S5000x16) (kRow x1))
    (broadcast S5000x16 (Scalar.ofBits .f32 0x00000000#32 : Ideal .f32))

/-- Each row's sum over its 16 lanes, divided by 16.0, kept as a column. -/
def kMean (y : FVec Ideal S5000x16 .f32) : FVec Ideal S5000x1 .f32 :=
  divf (shapeCast S5000x1 (multiReduction .add [1] S5000 y 0x00000000#32 reduces_S5000x16_S5000 (.inl rfl) rfl) shapeCasts_S5000_S5000x1)
    (broadcast S5000x1 (Scalar.ofBits .f32 0x41800000#32 : Ideal .f32))

/-- The rectified block with each row's mean taken off. -/
def kCen (x0 : Vec Ideal S5000x16 .f32) (x1 : Vec Ideal S16 .f32) : FVec Ideal S5000x16 .f32 :=
  subf (kRelu x0 x1) (kCol (kMean (kRelu x0 x1)))

/-- The whole body: centred, scaled by the reciprocal root of variance plus epsilon, then by gamma, plus beta. -/
def kLN (x0 : Vec Ideal S5000x16 .f32) (x1 x2 x3 : Vec Ideal S16 .f32) : FVec Ideal S5000x16 .f32 :=
  addf (mulf (mulf (kCen x0 x1)
      (kCol (rsqrt (addf (kMean (mulf (kCen x0 x1) (kCen x0 x1))) (broadcast S5000x1 (Scalar.ofBits .f32 0x3727C5AC#32 : Ideal .f32))))))
    (kRow x2)) (kRow x3)

/-- The body's payload is that composition. -/
theorem pay_eq (x0 : Vec Ideal S5000x16 .f32) (x1 x2 x3 : Vec Ideal S16 .f32) :
    k2_pay1 x0 x1 x2 x3 = kLN x0 x1 x2 x3 := rfl

theorem kRow_apply (x : Vec Ideal S16 .f32) (p : Fin 5000) (q : Fin 16) : kRow x (ix2 p q) = x (ix1 q) :=
  (broadcastTo_1b_ab_apply _ broadcasts_S1x16_S5000x16 p q).trans (shapeCast_a_1a_apply x shapeCasts_S16_S1x16 0 q)

theorem kCol_apply (v : FVec Ideal S5000x1 .f32) (p : Fin 5000) (q : Fin 16) : kCol v (ix2 p q) = v (ix2 p (0 : Fin 1)) :=
  broadcastTo_a1_ab_apply v broadcasts_S5000x1_S5000x16 p q

theorem kRelu_apply (x0 : Vec Ideal S5000x16 .f32) (x1 : Vec Ideal S16 .f32) (p : Fin 5000) (q : Fin 16) :
    kRelu x0 x1 (ix2 p q) = act (fun k => x0 (ix2 p k)) (fun k => x1 (ix1 k)) q := by
  unfold kRelu act
  rw [shapeCast_self]
  show max (x0 (ix2 p q) + kRow x1 (ix2 p q)) _ = _
  rw [kRow_apply]
  rfl

theorem kMean_apply (y : FVec Ideal S5000x16 .f32) (p : Fin 5000) (u : Fin 1) :
    kMean y (ix2 p u) = mean16 (fun k => y (ix2 p k)) := by
  unfold kMean mean16
  refine congrArg (fun s => Ideal.div s (Ideal.ofBits .f32 0x41800000#32)) ?_
  refine (shapeCast_a_a1_apply _ shapeCasts_S5000_S5000x1 p u).trans ?_
  refine (Ideal.multiReduction_add_single y 0x00000000#32 reduces_S5000x16_S5000 (.inl rfl) rfl (ix1 p)).trans ?_
  exact Finset.sum_congr rfl fun k _ => congrArg y (funext fun a => Fin.ext (by match a with | ⟨0, _⟩ => rfl | ⟨1, _⟩ => rfl))

theorem kCen_apply (x0 : Vec Ideal S5000x16 .f32) (x1 : Vec Ideal S16 .f32) (p : Fin 5000) (k : Fin 16) :
    kCen x0 x1 (ix2 p k)
      = act (fun k => x0 (ix2 p k)) (fun k => x1 (ix1 k)) k - mean16 (act (fun k => x0 (ix2 p k)) (fun k => x1 (ix1 k))) := by
  unfold kCen
  show kRelu x0 x1 (ix2 p k) - kCol (kMean (kRelu x0 x1)) (ix2 p k) = _
  rw [kCol_apply, kMean_apply, kRelu_apply]
  exact congrArg (fun f => _ - mean16 f) (funext fun k' => kRelu_apply x0 x1 p k')

/-- THE KERNEL'S BODY AT AN ENTRY of the block: row `p` of the block through the one-row formula. -/
theorem kLN_apply (x0 : Vec Ideal S5000x16 .f32) (x1 x2 x3 : Vec Ideal S16 .f32) (p : Fin 5000) (q : Fin 16) :
    k2_pay1 x0 x1 x2 x3 (ix2 p q)
      = lnRow (fun k => x0 (ix2 p k)) (fun k => x1 (ix1 k)) (fun k => x2 (ix1 k)) (fun k => x3 (ix1 k)) q := by
  rw [pay_eq]
  unfold kLN lnRow
  show kCen x0 x1 (ix2 p q)
      * kCol (rsqrt (addf (kMean (mulf (kCen x0 x1) (kCen x0 x1))) (broadcast S5000x1 (Scalar.ofBits .f32 0x3727C5AC#32 : Ideal .f32)))) (ix2 p q)
      * kRow x2 (ix2 p q) + kRow x3 (ix2 p q) = _
  rw [kCol_apply, kRow_apply, kRow_apply, kCen_apply]
  show _ * Ideal.rsqrt (kMean (mulf (kCen x0 x1) (kCen x0 x1)) (ix2 p (0 : Fin 1)) + Ideal.ofBits .f32 0x3727C5AC#32) * _ + _ = _
  rw [kMean_apply]
  have hsq : (fun k => mulf (kCen x0 x1) (kCen x0 x1) (ix2 p k))
      = fun k => (act (fun k => x0 (ix2 p k)) (fun k => x1 (ix1 k)) k - mean16 (act (fun k => x0 (ix2 p k)) (fun k => x1 (ix1 k))))
          * (act (fun k => x0 (ix2 p k)) (fun k => x1 (ix1 k)) k - mean16 (act (fun k => x0 (ix2 p k)) (fun k => x1 (ix1 k)))) :=
    funext fun k => by show kCen x0 x1 (ix2 p k) * kCen x0 x1 (ix2 p k) = _; rw [kCen_apply]
  rw [hsq]

end Kernel

/-! ## The reference's chain on the whole array, stage by stage -/

section Reference
open Cert.ReferenceIdeal Cert.ReferenceIdeal.Gen

/-- The whole aggregated array, a parameter vector, a per-row column. -/
abbrev Arr := (⟨S100000x16, .f32⟩ : BufTy).Contents (Elt Ideal)
abbrev Par := (⟨S16, .f32⟩ : BufTy).Contents (Elt Ideal)
abbrev Col := (⟨S100000x1, .f32⟩ : BufTy).Contents (Elt Ideal)

/-- A parameter vector laid along every row of the array. -/
def rRow (x : Par) : Arr :=
  broadcastInDim S100000x16 ![0, 1] bcast_S1x16_S100000x16_0_1 (broadcastInDim S1x16 ![1] bcast_S16_S1x16_1 x)

/-- A per-row value laid along its row. -/
def rCol (v : Col) : Arr := broadcastInDim S100000x16 ![0, 1] bcast_S100000x1_S100000x16_0_1 v

/-- Bias added, then the rectifier. -/
def rRelu (a : Arr) (b : Par) : Arr :=
  maximumf (F := Ideal) (s := S100000x16) (φ := .f32) (addf (F := Ideal) (s := S100000x16) (φ := .f32) a (rRow b))
    (broadcastInDim S100000x16 ![] bcast_S_S100000x16 (constant (F := Ideal) S_ .f32 0x00000000#32))

/-- Each row's sum over its 16 entries from the initial value zero, divided by 16.0, kept as a column. -/
def rMean (y : Arr) : Col :=
  Host.divf (F := Ideal)
    (broadcastInDim S100000x1 ![0] bcast_S100000_S100000x1_0
      (Host.reduceAdd (F := Ideal) y (constant (F := Ideal) S_ .f32 0x00000000#32) reducesTo_S100000x16_S100000_d1 h_S_))
    (broadcastInDim S100000x1 ![] bcast_S_S100000x1 (constant (F := Ideal) S_ .f32 0x41800000#32))

/-- The rectified array with each row's mean taken off. -/
def rCen (a : Arr) (b : Par) : Arr := subf (F := Ideal) (s := S100000x16) (φ := .f32) (rRelu a b) (rCol (rMean (rRelu a b)))

/-- THE REFERENCE'S STAGE: from the aggregated array and the three parameter vectors to the normalised array, the host
    operations in program order. -/
def R (a : Arr) (b g be : Par) : Arr :=
  addf (F := Ideal) (s := S100000x16) (φ := .f32) (mulf (F := Ideal) (s := S100000x16) (φ := .f32) (mulf (F := Ideal) (s := S100000x16) (φ := .f32) (rCen a b)
      (rCol (Host.rsqrt (F := Ideal) (s := S100000x1) (φ := .f32) (addf (F := Ideal) (s := S100000x1) (φ := .f32) (rMean (mulf (F := Ideal) (s := S100000x16) (φ := .f32) (rCen a b) (rCen a b)))
        (broadcastInDim S100000x1 ![] bcast_S_S100000x1 (constant (F := Ideal) S_ .f32 0x3727C5AC#32))))))
    (rRow g)) (rRow be)

theorem rRow_apply (x : Par) (r : Fin 100000) (q : Fin 16) : rRow x (ix2 r q) = x (ix1 q) :=
  (broadcastInDim_apply _ bcast_S1x16_S100000x16_0_1 _ (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)])).trans
  (broadcastInDim_apply _ bcast_S16_S1x16_1 x (ix2 (0 : Fin 1) q) (ix1 q) (fun a => match a with
    | ⟨0, _⟩ => by show q.val = if (16 : Nat) = 1 then 0 else q.val; rw [if_neg (by decide)]))

theorem rCol_apply (v : Col) (r : Fin 100000) (q : Fin 16) : rCol v (ix2 r q) = v (ix2 r (0 : Fin 1)) :=
  broadcastInDim_apply _ bcast_S100000x1_S100000x16_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

theorem rRelu_apply (a : Arr) (b : Par) (r : Fin 100000) (q : Fin 16) :
    rRelu a b (ix2 r q) = act (fun k => a (ix2 r k)) (fun k => b (ix1 k)) q := by
  unfold rRelu act
  show max (a (ix2 r q) + rRow b (ix2 r q)) (broadcastInDim S100000x16 ![] bcast_S_S100000x16 (constant (F := Ideal) S_ .f32 0x00000000#32) (ix2 r q)) = _
  rw [rRow_apply, broadcastInDim_apply _ bcast_S_S100000x16 _ (ix2 r q) ix0 (fun a => a.elim0)]
  rfl

theorem rMean_apply (y : Arr) (r : Fin 100000) (u : Fin 1) :
    rMean y (ix2 r u) = mean16 (fun k => y (ix2 r k)) := by
  unfold rMean mean16
  show Ideal.div _ _ = _
  refine congrArg₂ Ideal.div ?_ ?_
  · refine (broadcastInDim_apply _ bcast_S100000_S100000x1_0 _ (ix2 r u) (ix1 r) (fun a => match a with
      | ⟨0, _⟩ => by show r.val = if (100000 : Nat) = 1 then 0 else r.val; rw [if_neg (by decide)])).trans ?_
    simp only [Host.reduceAdd, Ideal.hostReduceAdd_def]
    rw [Ideal.hostReduceAdd_single reducesTo_S100000x16_S100000_d1 (by decide)]
    refine (congrArg (· + _) (show constant (F := Ideal) S_ .f32 0x00000000#32 (Shape.Idx.first h_S_) = 0 from Ideal.ofBits_zero_f32)).trans ?_
    rw [zero_add]
    exact Finset.sum_congr rfl fun k _ => congrArg y (funext fun a => Fin.ext (by match a with | ⟨0, _⟩ => rfl | ⟨1, _⟩ => rfl))
  · exact broadcastInDim_apply _ bcast_S_S100000x1 _ (ix2 r u) ix0 (fun a => a.elim0)

theorem rCen_apply (a : Arr) (b : Par) (r : Fin 100000) (k : Fin 16) :
    rCen a b (ix2 r k)
      = act (fun k => a (ix2 r k)) (fun k => b (ix1 k)) k - mean16 (act (fun k => a (ix2 r k)) (fun k => b (ix1 k))) := by
  unfold rCen
  show rRelu a b (ix2 r k) - rCol (rMean (rRelu a b)) (ix2 r k) = _
  rw [rCol_apply, rMean_apply, rRelu_apply]
  exact congrArg (fun f => _ - mean16 f) (funext fun k' => rRelu_apply a b r k')

/-- THE REFERENCE'S STAGE AT AN ENTRY of the array: row `r` of the array through the one-row formula. -/
theorem R_apply (a : Arr) (b g be : Par) (r : Fin 100000) (q : Fin 16) :
    R a b g be (ix2 r q)
      = lnRow (fun k => a (ix2 r k)) (fun k => b (ix1 k)) (fun k => g (ix1 k)) (fun k => be (ix1 k)) q := by
  unfold R lnRow
  show rCen a b (ix2 r q)
      * rCol (Host.rsqrt (F := Ideal) (s := S100000x1) (φ := .f32) (addf (F := Ideal) (s := S100000x1) (φ := .f32) (rMean (mulf (F := Ideal) (s := S100000x16) (φ := .f32) (rCen a b) (rCen a b)))
          (broadcastInDim S100000x1 ![] bcast_S_S100000x1 (constant (F := Ideal) S_ .f32 0x3727C5AC#32)))) (ix2 r q)
      * rRow g (ix2 r q) + rRow be (ix2 r q) = _
  rw [rCol_apply, rRow_apply, rRow_apply, rCen_apply]
  show _ * Ideal.rsqrt (rMean (mulf (F := Ideal) (s := S100000x16) (φ := .f32) (rCen a b) (rCen a b)) (ix2 r (0 : Fin 1))
      + broadcastInDim S100000x1 ![] bcast_S_S100000x1 (constant (F := Ideal) S_ .f32 0x3727C5AC#32) (ix2 r (0 : Fin 1))) * _ + _ = _
  rw [rMean_apply, broadcastInDim_apply _ bcast_S_S100000x1 _ (ix2 r (0 : Fin 1)) ix0 (fun a => a.elim0)]
  have hsq : (fun k => mulf (F := Ideal) (s := S100000x16) (φ := .f32) (rCen a b) (rCen a b) (ix2 r k))
      = fun k => (act (fun k => a (ix2 r k)) (fun k => b (ix1 k)) k - mean16 (act (fun k => a (ix2 r k)) (fun k => b (ix1 k))))
          * (act (fun k => a (ix2 r k)) (fun k => b (ix1 k)) k - mean16 (act (fun k => a (ix2 r k)) (fun k => b (ix1 k)))) :=
    funext fun k => by show rCen a b (ix2 r k) * rCen a b (ix2 r k) = _; rw [rCen_apply]
  rw [hsq]
  rfl

end Reference

/-! ## From blocks to the array -/

section Blocks
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The one-row formula depends on its four rows entry by entry. -/
theorem lnRow_congr {row row' b b' g g' be be' : Fin 16 → EReal} (h0 : ∀ k, row k = row' k) (h1 : ∀ k, b k = b' k)
    (h2 : ∀ k, g k = g' k) (h3 : ∀ k, be k = be' k) (q : Fin 16) : lnRow row b g be q = lnRow row' b' g' be' q := by
  rw [funext h0, funext h1, funext h2, funext h3]

/-- Two functions on a [5000, 16] block agree when they agree at every (row, column). -/
theorem ext_block {α : Type} (f g : (⟨2, ![5000, 16]⟩ : Shape).Idx → α) (h : ∀ (p : Fin 5000) (q : Fin 16), f (ix2 p q) = g (ix2 p q)) :
    f = g := funext fun j => by rw [eq_ix2 j]; exact h _ _

/-- The printed index maps over the 20 grid points: at point `t` the two row-block windows sit at block row `t`, column
    block 0; the three parameter windows at block 0. -/
theorem idx_facts : ∀ t : Fin cfg2.N,
    win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 2) = t.val ∧ win2_4.index t (1 : Fin 2) = 0 :=
  (by decide +kernel : ∀ t : Fin grid2.N, _)

/-- Row `p` of the input block at point `t` is row `5000 t + p` of the aggregated array. -/
theorem iblk0_apply (c : Dev nD) (t : Fin cfg2.N) (p : Fin 5000) (k : Fin 16) (hr : t.val * 5000 + p.val < 100000) :
    (iblk2 V c 0 t : Vec Ideal S5000x16 .f32) (ix2 p k)
      = (V c (Pipeline.arrRef spec2 0) : S100000x16.Idx → Elt Ideal .f32) (ix2 ⟨t.val * 5000 + p.val, hr⟩ k) := by
  obtain ⟨e0, e1, -⟩ := idx_facts t
  unfold iblk2
  rw [View.read_apply]
  refine congrArg (V c (Pipeline.arrRef spec2 0) : S100000x16.Idx → Elt Ideal .f32) (funext fun a => Fin.ext ?_)
  match a with
  | ⟨0, _⟩ => show win2_0.index t 0 * 5000 + 1 * p.val = t.val * 5000 + p.val; rw [e0]; omega
  | ⟨1, _⟩ => show win2_0.index t 1 * 16 + 1 * k.val = k.val; rw [e1]; omega

/-- Each parameter window's block at any point is the whole parameter vector. -/
theorem iblk1_apply (c : Dev nD) (t : Fin cfg2.N) (k : Fin 16) :
    (iblk2 V c 1 t : Vec Ideal S16 .f32) (ix1 k) = (V c (Pipeline.arrRef spec2 1) : S16.Idx → Elt Ideal .f32) (ix1 k) := by
  obtain ⟨-, -, e, -⟩ := idx_facts t
  unfold iblk2
  rw [View.read_apply]
  refine congrArg (V c (Pipeline.arrRef spec2 1) : S16.Idx → Elt Ideal .f32) (funext fun a => Fin.ext ?_)
  match a with
  | ⟨0, _⟩ => show win2_1.index t 0 * 16 + 1 * k.val = k.val; rw [e]; omega
theorem iblk2_apply (c : Dev nD) (t : Fin cfg2.N) (k : Fin 16) :
    (iblk2 V c 2 t : Vec Ideal S16 .f32) (ix1 k) = (V c (Pipeline.arrRef spec2 2) : S16.Idx → Elt Ideal .f32) (ix1 k) := by
  obtain ⟨-, -, -, e, -⟩ := idx_facts t
  unfold iblk2
  rw [View.read_apply]
  refine congrArg (V c (Pipeline.arrRef spec2 2) : S16.Idx → Elt Ideal .f32) (funext fun a => Fin.ext ?_)
  match a with
  | ⟨0, _⟩ => show win2_2.index t 0 * 16 + 1 * k.val = k.val; rw [e]; omega
theorem iblk3_apply (c : Dev nD) (t : Fin cfg2.N) (k : Fin 16) :
    (iblk2 V c 3 t : Vec Ideal S16 .f32) (ix1 k) = (V c (Pipeline.arrRef spec2 3) : S16.Idx → Elt Ideal .f32) (ix1 k) := by
  obtain ⟨-, -, -, -, e, -⟩ := idx_facts t
  unfold iblk2
  rw [View.read_apply]
  refine congrArg (V c (Pipeline.arrRef spec2 3) : S16.Idx → Elt Ideal .f32) (funext fun a => Fin.ext ?_)
  match a with
  | ⟨0, _⟩ => show win2_3.index t 0 * 16 + 1 * k.val = k.val; rw [e]; omega

/-- WHAT POINT `t` WRITES BACK is block `t` of the reference's stage applied to the arrays as the region finds them. -/
theorem flushed_eq (c : Dev nD) (t : Fin cfg2.N) :
    (dat2 V c).flushed 4 t = ((cfg2.win 4).blk t).view.read (Elt Ideal)
      (R (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz2]
  simp only [View.ld_unit_zero (S := S5000x16) hz2, View.ld_unit_zero (S := S16) hz1]
  refine ext_block _ _ fun p q => ?_
  have hN : cfg2.N = 20 := N_2
  have hr : t.val * 5000 + p.val < 100000 := by have := t.isLt; omega
  obtain ⟨-, -, -, -, -, e5, e6⟩ := idx_facts t
  have hemb : ((cfg2.win 4).blk t).view.emb (ix2 p q) = ix2 ⟨t.val * 5000 + p.val, hr⟩ q := by
    funext a
    apply Fin.ext
    match a with
    | ⟨0, _⟩ => show win2_4.index t 0 * 5000 + 1 * p.val = t.val * 5000 + p.val; rw [e5]; omega
    | ⟨1, _⟩ => show win2_4.index t 1 * 16 + 1 * q.val = q.val; rw [e6]; omega
  rw [View.read_apply]
  refine ((kLN_apply _ _ _ _ p q).trans ?_).trans ((congrArg _ hemb).trans (R_apply _ _ _ _ ⟨_, hr⟩ q)).symm
  exact lnRow_congr (fun k => iblk0_apply V c t p k hr) (fun k => iblk1_apply V c t k) (fun k => iblk2_apply V c t k)
    (fun k => iblk3_apply V c t k) q

/-- An index of the array is in point `t`'s block iff each coordinate is in the block's range on its axis. -/
theorem mem_blk (t : Fin cfg2.N) (i : S100000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v49).slice (win2_4.rect t)).set ↔ _
  rw [View.set_slice_whole, Rect.mem_set_unit]
  exact Iff.rfl

/-- THE ARRAY AFTER THE REGION: the reference's stage applied to the arrays as the region finds them. Row `r` lies in
    the block of point `r / 5000`, so the 20 blocks cover the array. -/
theorem final (c : Dev nD) :
    (dat2 V c).arrAt 4 cfg2.N
      = R (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) fun i => by
    have hi0 : (i 0).val < 100000 := (i 0).isLt
    have hi1 : (i 1).val < 16 := (i 1).isLt
    have hN : cfg2.N = 20 := N_2
    obtain ⟨t, ht⟩ : ∃ t : Fin cfg2.N, t.val = (i 0).val / 5000 := ⟨⟨(i 0).val / 5000, by omega⟩, rfl⟩
    obtain ⟨-, -, -, -, -, e5, e6⟩ := idx_facts t
    refine ⟨t, flush2_4 t, ?_⟩
    rw [mem_blk]
    intro a
    match a with
    | ⟨0, _⟩ => show win2_4.index t 0 * 5000 ≤ (i 0).val ∧ (i 0).val < win2_4.index t 0 * 5000 + 5000; rw [e5, ht]; omega
    | ⟨1, _⟩ => show win2_4.index t 1 * 16 ≤ (i 1).val ∧ (i 1).val < win2_4.index t 1 * 16 + 16; rw [e6]; omega

end Blocks

end Cert.Bridge.LayerNorm1

end
-- ==== Proof.Linear2.lean ====
/-
  The second linear layer, x2 · W2 with x2 of 100000 rows and 16 columns and W2 of 16 rows and
  32 columns.

  The kernel computes it in 20 row blocks of 5000 rows: at grid point t it multiplies rows
  5000·t … 5000·t + 4999 of x2 by the whole of W2 on the matrix unit into a zero accumulator and
  writes the 5000 × 32 result back as block t of the output. The reference computes one
  dot_general of the whole arrays. On exact values both are, entry by entry, the same sum
  ∑ k, x2(r, k) · W2(k, q): the changes of float format around the matrix unit are the identity,
  and entry (p, q) of block t depends only on row 5000·t + p of x2. Every row r lies in block
  r / 5000 and every point writes its block back, so after the region the output array is the
  reference's product of the arrays the region was entered with, whatever those are.
-/
import proofs.«106738_j23158463660764_2_alg».proof.Proof.Gen.KernelIdeal.Frame
import proofs.«106738_j23158463660764_2_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

noncomputable section

namespace Cert.Bridge.Linear2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The reference's stage -/

/-- The second linear layer as the reference computes it: the host's dot_general of the
    [100000,16] row array with the [16,32] weight matrix, contracting the row array's second
    axis with the weight's first. -/
def R (a : (⟨Cert.ReferenceIdeal.S100000x16, .f32⟩ : BufTy).Contents (Elt Ideal))
    (b : (⟨Cert.ReferenceIdeal.S16x32, .f32⟩ : BufTy).Contents (Elt Ideal)) :
    (⟨Cert.ReferenceIdeal.S100000x32, .f32⟩ : BufTy).Contents (Elt Ideal) :=
  Host.dotGeneral (F := Ideal) (φ₁ := .f32) (φ₂ := .f32) Cert.ReferenceIdeal.dot_S100000x16_S16x32_S100000x32_1_0_0_1_n_n none a b

theorem refL0 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x32_S100000x32_1_0_0_1_n_n.lhsBatch by decide), dif_pos (show (0 : Fin Cert.ReferenceIdeal.S100000x16.rank) ∈ Cert.ReferenceIdeal.dot_S100000x16_S16x32_S100000x32_1_0_0_1_n_n.lhsNonContracting by decide)]
  rfl
theorem refL1 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.lhsIdx i q 1).val = (q ⟨0, by decide⟩).val :=
  Cert.ReferenceIdeal.dot_S100000x16_S16x32_S100000x32_1_0_0_1_n_n.lhsIdx_val_of_single rfl i q
theorem refR0 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.rhsIdx i q 0).val = (q ⟨0, by decide⟩).val :=
  Cert.ReferenceIdeal.dot_S100000x16_S16x32_S100000x32_1_0_0_1_n_n.rhsIdx_val_of_single rfl i q
theorem refR1 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.rhsIdx i q 1).val = (i 1).val := by
  unfold DotDims.rhsIdx
  rw [dif_neg (show ¬(1 : Fin Cert.ReferenceIdeal.S16x32.rank) ∈ Cert.ReferenceIdeal.dot_S100000x16_S16x32_S100000x32_1_0_0_1_n_n.rhsBatch by decide), dif_pos (show (1 : Fin Cert.ReferenceIdeal.S16x32.rank) ∈ Cert.ReferenceIdeal.dot_S100000x16_S16x32_S100000x32_1_0_0_1_n_n.rhsNonContracting by decide)]
  rfl

/-- Entry (r, q) of the reference's product is the sum over k of a(r, k) · b(k, q). -/
theorem R_apply (a : (⟨Cert.ReferenceIdeal.S100000x16, .f32⟩ : BufTy).Contents (Elt Ideal))
    (b : (⟨Cert.ReferenceIdeal.S16x32, .f32⟩ : BufTy).Contents (Elt Ideal)) (r : Fin 100000) (q : Fin 32) :
    R a b (ix2 r q) = ∑ k : Fin 16, a (ix2 r k) * b (ix2 k q) := by
  unfold R
  simp only [Host.dotGeneral]
  rw [Ideal.dotGeneral_apply, ← Equiv.sum_comp (ValueIdx.contrEquiv1 Cert.ReferenceIdeal.dot_S100000x16_S16x32_S100000x32_1_0_0_1_n_n 16 rfl rfl).symm]
  refine Finset.sum_congr rfl fun k _ => ?_
  have hk := ValueIdx.contrEquiv1_symm_val Cert.ReferenceIdeal.dot_S100000x16_S16x32_S100000x32_1_0_0_1_n_n 16 rfl rfl k
  have el : Cert.ReferenceIdeal.dot_S100000x16_S16x32_S100000x32_1_0_0_1_n_n.lhsIdx (ix2 r q) ((ValueIdx.contrEquiv1 Cert.ReferenceIdeal.dot_S100000x16_S16x32_S100000x32_1_0_0_1_n_n 16 rfl rfl).symm k) = ix2 r k := funext fun a => Fin.ext (by
    match a with
    | ⟨0, _⟩ => exact refL0 _ _
    | ⟨1, _⟩ => exact (refL1 _ _).trans hk)
  have er : Cert.ReferenceIdeal.dot_S100000x16_S16x32_S100000x32_1_0_0_1_n_n.rhsIdx (ix2 r q) ((ValueIdx.contrEquiv1 Cert.ReferenceIdeal.dot_S100000x16_S16x32_S100000x32_1_0_0_1_n_n 16 rfl rfl).symm k) = ix2 k q := funext fun a => Fin.ext (by
    match a with
    | ⟨0, _⟩ => exact (refR0 _ _).trans hk
    | ⟨1, _⟩ => exact refR1 _ _)
  rw [el, er]

/-! ## The kernel's body at an entry -/

theorem kerL0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem kerL1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem kerR0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem kerR1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- Entry (p, q) of the block the body stores: the matrix unit's product into a zero
    accumulator, the changes of float format being the identity on exact values, is the sum
    over k of x(p, k) · w(k, q). -/
theorem pay_apply (v0 : Vec Ideal S5000x16 .f32) (v3 : Vec Ideal S16x32 .f32) (p : Fin 5000) (q : Fin 32) :
    k3_pay1 (F := Ideal) v0 v3 (ix2 p q) = ∑ k : Fin 16, v0 (ix2 p k) * v3 (ix2 k q) := by
  unfold k3_pay1
  refine (Ideal.matmul_constant_zero_apply dot_S5000x16_S16x32_S5000x32_1_0_0_1_n_n none _ _ (ix2 p q)).trans ?_
  rw [← Equiv.sum_comp (ValueIdx.contrEquiv1 dot_S5000x16_S16x32_S5000x32_1_0_0_1_n_n 16 rfl rfl).symm]
  refine Finset.sum_congr rfl fun k _ => ?_
  have hk := ValueIdx.contrEquiv1_symm_val dot_S5000x16_S16x32_S5000x32_1_0_0_1_n_n 16 rfl rfl k
  have el : dot_S5000x16_S16x32_S5000x32_1_0_0_1_n_n.lhsIdx (ix2 p q) ((ValueIdx.contrEquiv1 dot_S5000x16_S16x32_S5000x32_1_0_0_1_n_n 16 rfl rfl).symm k) = ix2 p k := funext fun a => Fin.ext (by
    match a with
    | ⟨0, _⟩ => exact kerL0 _ _
    | ⟨1, _⟩ => exact (kerL1 _ _).trans hk)
  have er : dot_S5000x16_S16x32_S5000x32_1_0_0_1_n_n.rhsIdx (ix2 p q) ((ValueIdx.contrEquiv1 dot_S5000x16_S16x32_S5000x32_1_0_0_1_n_n 16 rfl rfl).symm k) = ix2 k q := funext fun a => Fin.ext (by
    match a with
    | ⟨0, _⟩ => exact (kerR0 _ _).trans hk
    | ⟨1, _⟩ => exact kerR1 _ _)
  rw [el, er, truncf_apply, truncf_apply, shapeCast_self]

/-- So an entry of the stored block and an entry of the reference's product are the same sum
    as soon as the block's row p is the array's row r and the two weight operands agree. -/
theorem entry_eq (X : Vec Ideal S5000x16 .f32) (W : Vec Ideal S16x32 .f32)
    (A : (⟨Cert.ReferenceIdeal.S100000x16, .f32⟩ : BufTy).Contents (Elt Ideal))
    (B : (⟨Cert.ReferenceIdeal.S16x32, .f32⟩ : BufTy).Contents (Elt Ideal))
    (p : Fin 5000) (q : Fin 32) (r : Fin 100000)
    (hX : ∀ k : Fin 16, X (ix2 p k) = A (ix2 r k)) (hW : ∀ k : Fin 16, W (ix2 k q) = B (ix2 k q)) :
    k3_pay1 (F := Ideal) X W (ix2 p q) = R A B (ix2 r q) := by
  rw [pay_apply, R_apply]
  exact Finset.sum_congr rfl fun k _ => by rw [hX k, hW k]

/-! ## From blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block indices at grid point t, decided over the 20 points: the row-block windows
    (input rows, output rows) are at block t of their arrays, the weight window is the whole
    matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the input block at point t is row 5000·t + p of the row array. -/
theorem iblk0_apply (c : Dev nD) (t : Fin cfg3.N) (p : Fin 5000) (k : Fin 16) (r : Fin 100000)
    (hr : r.val = t.val * 5000 + p.val) :
    (iblk3 V c 0 t : Vec Ideal S5000x16 .f32) (ix2 p k)
      = (V c (Pipeline.arrRef spec3 0) : S100000x16.Idx → Elt Ideal .f32) (ix2 r k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 16 + 1 * k.val = k.val; rw [e1]; omega

/-- The weight block at every point is the whole weight matrix. -/
theorem iblk1_apply (c : Dev nD) (t : Fin cfg3.N) (k : Fin 16) (q : Fin 32) :
    (iblk3 V c 1 t : Vec Ideal S16x32 .f32) (ix2 k q)
      = (V c (Pipeline.arrRef spec3 1) : S16x32.Idx → Elt Ideal .f32) (ix2 k q) := by
  obtain ⟨-, -, e2, e3, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 16 + 1 * k.val = k.val; rw [e2]; omega
  | ⟨1, _⟩ => show win3_1.index t (1 : Fin 2) * 32 + 1 * q.val = q.val; rw [e3]; omega

/-- The product array: the reference's stage applied to the two arrays as the region finds them. -/
abbrev G (c : Dev nD) : Buf (Elt Ideal) ((cfg3.win 2).arr.view.loc (c.tc : Thread nD τ)) :=
  R (V c (Pipeline.arrRef spec3 0)) (V c (Pipeline.arrRef spec3 1))

/-- What point t writes back is block t (rows 5000·t … 5000·t + 4999) of the product array. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero hz]
  simp only [View.ld_unit_zero (S := S5000x16) hz, View.ld_unit_zero (S := S16x32) hz]
  obtain ⟨-, -, -, -, e4, e5⟩ := idx_facts t
  have hN : cfg3.N = 20 := N_3
  have ht : t.val < 20 := hN ▸ t.isLt
  funext j
  have hj0 : (j 0).val < 5000 := (j 0).isLt
  have hj1 : (j 1).val < 32 := (j 1).isLt
  have hr : t.val * 5000 + (j 0).val < 100000 := by omega
  show k3_pay1 (F := Ideal) (iblk3 V c 0 t) (iblk3 V c 1 t) ((cfg3.win 2).xinj (grid3.coords t) j)
    = G V c (((cfg3.win 2).blk t).view.emb j)
  have hx : (cfg3.win 2).xinj (grid3.coords t) j = ix2 (⟨(j 0).val, hj0⟩ : Fin 5000) (⟨(j 1).val, hj1⟩ : Fin 32) :=
    funext fun a => by match a with | ⟨0, _⟩ => rfl | ⟨1, _⟩ => rfl
  have he : ((cfg3.win 2).blk t).view.emb j = ix2 (⟨t.val * 5000 + (j 0).val, hr⟩ : Fin 100000) (⟨(j 1).val, hj1⟩ : Fin 32) :=
    funext fun a => Fin.ext (by
      match a with
      | ⟨0, _⟩ => show win3_2.index t (0 : Fin 2) * 5000 + 1 * (j 0).val = t.val * 5000 + (j 0).val; rw [e4]; omega
      | ⟨1, _⟩ => show win3_2.index t (1 : Fin 2) * 32 + 1 * (j 1).val = (j 1).val; rw [e5]; omega)
  rw [hx, he]
  exact entry_eq (iblk3 V c 0 t) (iblk3 V c 1 t) (V c (Pipeline.arrRef spec3 0)) (V c (Pipeline.arrRef spec3 1))
    ⟨(j 0).val, hj0⟩ ⟨(j 1).val, hj1⟩ ⟨t.val * 5000 + (j 0).val, hr⟩
    (fun k => iblk0_apply V c t ⟨(j 0).val, hj0⟩ k ⟨t.val * 5000 + (j 0).val, hr⟩ rfl)
    (fun k => iblk1_apply V c t k ⟨(j 1).val, hj1⟩)

/-- An index of the product array is in point t's block iff each coordinate is in the block's
    range on its axis. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v50).slice (win3_2.rect t)).set ↔ _
  rw [View.set_slice_whole, Rect.mem_set_unit]
  exact Iff.rfl

/-- Row r of the product array lies in the block of point r / 5000, and every point writes back. -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 32 ≤ (i 1).val ∧ (i 1).val < win3_2.index t (1 : Fin 2) * 32 + 32; rw [e5]; omega

/-- After the region's run its output array holds the reference's product of the two arrays
    the region was entered with. -/
theorem final (c : Dev nD) :
    (Cert.KernelIdeal.Gen.dat3 (F := Ideal) V c).arrAt 2 Cert.KernelIdeal.cfg3.N
      = R (V c (Pipeline.arrRef Cert.KernelIdeal.spec3 0)) (V c (Pipeline.arrRef Cert.KernelIdeal.spec3 1)) :=
  (dat3 (F := Ideal) V c).arrAt_eq_of_cover 2 (G V c) (fun t _ => flushed_eq V c t) cover

end Blocks

end Cert.Bridge.Linear2

end
-- ==== Proof.LayerNorm2.lean ====
/- The second LayerNorm stage of the forward pass,
   LayerNorm(relu(agg + b2)) * g2 + be2 over rows of width 32. The kernel computes it in row blocks of 5000
   rows; the reference computes it on the whole [100000, 32] array. Both apply the same operations in the same
   order to one row at a time, so each side is read at an index (r, q) as ONE formula of row r of the aggregated
   array and of the three parameter vectors (`lnRow`), and the blocks tile the rows. -/
import proofs.«106738_j23158463660764_2_alg».proof.Proof.Gen.KernelIdeal.Frame
import proofs.«106738_j23158463660764_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.Bridge.LayerNorm2

/-! ## Two column forms of the layout operations, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One row, as a formula -/

/-- The rectified pre-activation of one row: bias added, negative entries cut to zero. -/
def act (row b : Fin 32 → EReal) (k : Fin 32) : EReal := max (row k + b k) (Ideal.ofBits .f32 0x00000000#32)

/-- The mean of 32 entries: their sum divided by 32.0. -/
def mean32 (f : Fin 32 → EReal) : EReal := Ideal.div (∑ k, f k) (Ideal.ofBits .f32 0x42000000#32)

/-- LayerNorm of one row at column `q`: the centred entry times the reciprocal square root of the row's variance
    plus epsilon, scaled by `g` and shifted by `be`. -/
def lnRow (row b g be : Fin 32 → EReal) (q : Fin 32) : EReal :=
  (act row b q - mean32 (act row b))
      * Ideal.rsqrt (mean32 (fun k => (act row b k - mean32 (act row b)) * (act row b k - mean32 (act row b)))
          + Ideal.ofBits .f32 0x3727C5AC#32)
      * g q + be q

/-! ## The kernel's body on one block, stage by stage -/

section Kernel
open Cert.KernelIdeal Cert.KernelIdeal.Gen

/-- A parameter vector laid along every row of the block. -/
def kRow (x : Vec Ideal S32 .f32) : FVec Ideal S5000x32 .f32 :=
  broadcastTo S5000x32 (shapeCast S1x32 x shapeCasts_S32_S1x32) broadcasts_S1x32_S5000x32

/-- A per-row value laid along its row. -/
def kCol (v : FVec Ideal S5000x1 .f32) : FVec Ideal S5000x32 .f32 :=
  broadcastTo S5000x32 v broadcasts_S5000x1_S5000x32

/-- Bias added, then the rectifier. -/
def kRelu (x0 : Vec Ideal S5000x32 .f32) (x1 : Vec Ideal S32 .f32) : FVec Ideal S5000x32 .f32 :=
  maximumf (addf (shapeCast S5000x32 x0 shapeCasts_S5000x32_S5000x32) (kRow x1))
    (broadcast S5000x32 (Scalar.ofBits .f32 0x00000000#32 : Ideal .f32))

/-- Each row's sum over its 32 lanes, divided by 32.0, kept as a column. -/
def kMean (y : FVec Ideal S5000x32 .f32) : FVec Ideal S5000x1 .f32 :=
  divf (shapeCast S5000x1 (multiReduction .add [1] S5000 y 0x00000000#32 reduces_S5000x32_S5000 (.inl rfl) rfl) shapeCasts_S5000_S5000x1)
    (broadcast S5000x1 (Scalar.ofBits .f32 0x42000000#32 : Ideal .f32))

/-- The rectified block with each row's mean taken off. -/
def kCen (x0 : Vec Ideal S5000x32 .f32) (x1 : Vec Ideal S32 .f32) : FVec Ideal S5000x32 .f32 :=
  subf (kRelu x0 x1) (kCol (kMean (kRelu x0 x1)))

/-- The whole body: centred, scaled by the reciprocal root of variance plus epsilon, then by gamma, plus beta. -/
def kLN (x0 : Vec Ideal S5000x32 .f32) (x1 x2 x3 : Vec Ideal S32 .f32) : FVec Ideal S5000x32 .f32 :=
  addf (mulf (mulf (kCen x0 x1)
      (kCol (rsqrt (addf (kMean (mulf (kCen x0 x1) (kCen x0 x1))) (broadcast S5000x1 (Scalar.ofBits .f32 0x3727C5AC#32 : Ideal .f32))))))
    (kRow x2)) (kRow x3)

/-- The body's payload is that composition. -/
theorem pay_eq (x0 : Vec Ideal S5000x32 .f32) (x1 x2 x3 : Vec Ideal S32 .f32) :
    k4_pay1 x0 x1 x2 x3 = kLN x0 x1 x2 x3 := rfl

theorem kRow_apply (x : Vec Ideal S32 .f32) (p : Fin 5000) (q : Fin 32) : kRow x (ix2 p q) = x (ix1 q) :=
  (broadcastTo_1b_ab_apply _ broadcasts_S1x32_S5000x32 p q).trans (shapeCast_a_1a_apply x shapeCasts_S32_S1x32 0 q)

theorem kCol_apply (v : FVec Ideal S5000x1 .f32) (p : Fin 5000) (q : Fin 32) : kCol v (ix2 p q) = v (ix2 p (0 : Fin 1)) :=
  broadcastTo_a1_ab_apply v broadcasts_S5000x1_S5000x32 p q

theorem kRelu_apply (x0 : Vec Ideal S5000x32 .f32) (x1 : Vec Ideal S32 .f32) (p : Fin 5000) (q : Fin 32) :
    kRelu x0 x1 (ix2 p q) = act (fun k => x0 (ix2 p k)) (fun k => x1 (ix1 k)) q := by
  unfold kRelu act
  rw [shapeCast_self]
  show max (x0 (ix2 p q) + kRow x1 (ix2 p q)) _ = _
  rw [kRow_apply]
  rfl

theorem kMean_apply (y : FVec Ideal S5000x32 .f32) (p : Fin 5000) (u : Fin 1) :
    kMean y (ix2 p u) = mean32 (fun k => y (ix2 p k)) := by
  unfold kMean mean32
  refine congrArg (fun s => Ideal.div s (Ideal.ofBits .f32 0x42000000#32)) ?_
  refine (shapeCast_a_a1_apply _ shapeCasts_S5000_S5000x1 p u).trans ?_
  refine (Ideal.multiReduction_add_single y 0x00000000#32 reduces_S5000x32_S5000 (.inl rfl) rfl (ix1 p)).trans ?_
  exact Finset.sum_congr rfl fun k _ => congrArg y (funext fun a => Fin.ext (by match a with | ⟨0, _⟩ => rfl | ⟨1, _⟩ => rfl))

theorem kCen_apply (x0 : Vec Ideal S5000x32 .f32) (x1 : Vec Ideal S32 .f32) (p : Fin 5000) (k : Fin 32) :
    kCen x0 x1 (ix2 p k)
      = act (fun k => x0 (ix2 p k)) (fun k => x1 (ix1 k)) k - mean32 (act (fun k => x0 (ix2 p k)) (fun k => x1 (ix1 k))) := by
  unfold kCen
  show kRelu x0 x1 (ix2 p k) - kCol (kMean (kRelu x0 x1)) (ix2 p k) = _
  rw [kCol_apply, kMean_apply, kRelu_apply]
  exact congrArg (fun f => _ - mean32 f) (funext fun k' => kRelu_apply x0 x1 p k')

/-- THE KERNEL'S BODY AT AN ENTRY of the block: row `p` of the block through the one-row formula. -/
theorem kLN_apply (x0 : Vec Ideal S5000x32 .f32) (x1 x2 x3 : Vec Ideal S32 .f32) (p : Fin 5000) (q : Fin 32) :
    k4_pay1 x0 x1 x2 x3 (ix2 p q)
      = lnRow (fun k => x0 (ix2 p k)) (fun k => x1 (ix1 k)) (fun k => x2 (ix1 k)) (fun k => x3 (ix1 k)) q := by
  rw [pay_eq]
  unfold kLN lnRow
  show kCen x0 x1 (ix2 p q)
      * kCol (rsqrt (addf (kMean (mulf (kCen x0 x1) (kCen x0 x1))) (broadcast S5000x1 (Scalar.ofBits .f32 0x3727C5AC#32 : Ideal .f32)))) (ix2 p q)
      * kRow x2 (ix2 p q) + kRow x3 (ix2 p q) = _
  rw [kCol_apply, kRow_apply, kRow_apply, kCen_apply]
  show _ * Ideal.rsqrt (kMean (mulf (kCen x0 x1) (kCen x0 x1)) (ix2 p (0 : Fin 1)) + Ideal.ofBits .f32 0x3727C5AC#32) * _ + _ = _
  rw [kMean_apply]
  have hsq : (fun k => mulf (kCen x0 x1) (kCen x0 x1) (ix2 p k))
      = fun k => (act (fun k => x0 (ix2 p k)) (fun k => x1 (ix1 k)) k - mean32 (act (fun k => x0 (ix2 p k)) (fun k => x1 (ix1 k))))
          * (act (fun k => x0 (ix2 p k)) (fun k => x1 (ix1 k)) k - mean32 (act (fun k => x0 (ix2 p k)) (fun k => x1 (ix1 k)))) :=
    funext fun k => by show kCen x0 x1 (ix2 p k) * kCen x0 x1 (ix2 p k) = _; rw [kCen_apply]
  rw [hsq]

end Kernel

/-! ## The reference's chain on the whole array, stage by stage -/

section Reference
open Cert.ReferenceIdeal Cert.ReferenceIdeal.Gen

/-- The whole aggregated array, a parameter vector, a per-row column. -/
abbrev Arr := (⟨S100000x32, .f32⟩ : BufTy).Contents (Elt Ideal)
abbrev Par := (⟨S32, .f32⟩ : BufTy).Contents (Elt Ideal)
abbrev Col := (⟨S100000x1, .f32⟩ : BufTy).Contents (Elt Ideal)

/-- A parameter vector laid along every row of the array. -/
def rRow (x : Par) : Arr :=
  broadcastInDim S100000x32 ![0, 1] bcast_S1x32_S100000x32_0_1 (broadcastInDim S1x32 ![1] bcast_S32_S1x32_1 x)

/-- A per-row value laid along its row. -/
def rCol (v : Col) : Arr := broadcastInDim S100000x32 ![0, 1] bcast_S100000x1_S100000x32_0_1 v

/-- Bias added, then the rectifier. -/
def rRelu (a : Arr) (b : Par) : Arr :=
  maximumf (F := Ideal) (s := S100000x32) (φ := .f32) (addf (F := Ideal) (s := S100000x32) (φ := .f32) a (rRow b))
    (broadcastInDim S100000x32 ![] bcast_S_S100000x32 (constant (F := Ideal) S_ .f32 0x00000000#32))

/-- Each row's sum over its 32 entries from the initial value zero, divided by 32.0, kept as a column. -/
def rMean (y : Arr) : Col :=
  Host.divf (F := Ideal)
    (broadcastInDim S100000x1 ![0] bcast_S100000_S100000x1_0
      (Host.reduceAdd (F := Ideal) y (constant (F := Ideal) S_ .f32 0x00000000#32) reducesTo_S100000x32_S100000_d1 h_S_))
    (broadcastInDim S100000x1 ![] bcast_S_S100000x1 (constant (F := Ideal) S_ .f32 0x42000000#32))

/-- The rectified array with each row's mean taken off. -/
def rCen (a : Arr) (b : Par) : Arr := subf (F := Ideal) (s := S100000x32) (φ := .f32) (rRelu a b) (rCol (rMean (rRelu a b)))

/-- THE REFERENCE'S STAGE: from the aggregated array and the three parameter vectors to the normalised array, the host
    operations in program order. -/
def R (a : Arr) (b g be : Par) : Arr :=
  addf (F := Ideal) (s := S100000x32) (φ := .f32) (mulf (F := Ideal) (s := S100000x32) (φ := .f32) (mulf (F := Ideal) (s := S100000x32) (φ := .f32) (rCen a b)
      (rCol (Host.rsqrt (F := Ideal) (s := S100000x1) (φ := .f32) (addf (F := Ideal) (s := S100000x1) (φ := .f32) (rMean (mulf (F := Ideal) (s := S100000x32) (φ := .f32) (rCen a b) (rCen a b)))
        (broadcastInDim S100000x1 ![] bcast_S_S100000x1 (constant (F := Ideal) S_ .f32 0x3727C5AC#32))))))
    (rRow g)) (rRow be)

theorem rRow_apply (x : Par) (r : Fin 100000) (q : Fin 32) : rRow x (ix2 r q) = x (ix1 q) :=
  (broadcastInDim_apply _ bcast_S1x32_S100000x32_0_1 _ (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans
  (broadcastInDim_apply _ bcast_S32_S1x32_1 x (ix2 (0 : Fin 1) q) (ix1 q) (fun a => match a with
    | ⟨0, _⟩ => by show q.val = if (32 : Nat) = 1 then 0 else q.val; rw [if_neg (by decide)]))

theorem rCol_apply (v : Col) (r : Fin 100000) (q : Fin 32) : rCol v (ix2 r q) = v (ix2 r (0 : Fin 1)) :=
  broadcastInDim_apply _ bcast_S100000x1_S100000x32_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

theorem rRelu_apply (a : Arr) (b : Par) (r : Fin 100000) (q : Fin 32) :
    rRelu a b (ix2 r q) = act (fun k => a (ix2 r k)) (fun k => b (ix1 k)) q := by
  unfold rRelu act
  show max (a (ix2 r q) + rRow b (ix2 r q)) (broadcastInDim S100000x32 ![] bcast_S_S100000x32 (constant (F := Ideal) S_ .f32 0x00000000#32) (ix2 r q)) = _
  rw [rRow_apply, broadcastInDim_apply _ bcast_S_S100000x32 _ (ix2 r q) ix0 (fun a => a.elim0)]
  rfl

theorem rMean_apply (y : Arr) (r : Fin 100000) (u : Fin 1) :
    rMean y (ix2 r u) = mean32 (fun k => y (ix2 r k)) := by
  unfold rMean mean32
  show Ideal.div _ _ = _
  refine congrArg₂ Ideal.div ?_ ?_
  · refine (broadcastInDim_apply _ bcast_S100000_S100000x1_0 _ (ix2 r u) (ix1 r) (fun a => match a with
      | ⟨0, _⟩ => by show r.val = if (100000 : Nat) = 1 then 0 else r.val; rw [if_neg (by decide)])).trans ?_
    simp only [Host.reduceAdd, Ideal.hostReduceAdd_def]
    rw [Ideal.hostReduceAdd_single reducesTo_S100000x32_S100000_d1 (by decide)]
    refine (congrArg (· + _) (show constant (F := Ideal) S_ .f32 0x00000000#32 (Shape.Idx.first h_S_) = 0 from Ideal.ofBits_zero_f32)).trans ?_
    rw [zero_add]
    exact Finset.sum_congr rfl fun k _ => congrArg y (funext fun a => Fin.ext (by match a with | ⟨0, _⟩ => rfl | ⟨1, _⟩ => rfl))
  · exact broadcastInDim_apply _ bcast_S_S100000x1 _ (ix2 r u) ix0 (fun a => a.elim0)

theorem rCen_apply (a : Arr) (b : Par) (r : Fin 100000) (k : Fin 32) :
    rCen a b (ix2 r k)
      = act (fun k => a (ix2 r k)) (fun k => b (ix1 k)) k - mean32 (act (fun k => a (ix2 r k)) (fun k => b (ix1 k))) := by
  unfold rCen
  show rRelu a b (ix2 r k) - rCol (rMean (rRelu a b)) (ix2 r k) = _
  rw [rCol_apply, rMean_apply, rRelu_apply]
  exact congrArg (fun f => _ - mean32 f) (funext fun k' => rRelu_apply a b r k')

/-- THE REFERENCE'S STAGE AT AN ENTRY of the array: row `r` of the array through the one-row formula. -/
theorem R_apply (a : Arr) (b g be : Par) (r : Fin 100000) (q : Fin 32) :
    R a b g be (ix2 r q)
      = lnRow (fun k => a (ix2 r k)) (fun k => b (ix1 k)) (fun k => g (ix1 k)) (fun k => be (ix1 k)) q := by
  unfold R lnRow
  show rCen a b (ix2 r q)
      * rCol (Host.rsqrt (F := Ideal) (s := S100000x1) (φ := .f32) (addf (F := Ideal) (s := S100000x1) (φ := .f32) (rMean (mulf (F := Ideal) (s := S100000x32) (φ := .f32) (rCen a b) (rCen a b)))
          (broadcastInDim S100000x1 ![] bcast_S_S100000x1 (constant (F := Ideal) S_ .f32 0x3727C5AC#32)))) (ix2 r q)
      * rRow g (ix2 r q) + rRow be (ix2 r q) = _
  rw [rCol_apply, rRow_apply, rRow_apply, rCen_apply]
  show _ * Ideal.rsqrt (rMean (mulf (F := Ideal) (s := S100000x32) (φ := .f32) (rCen a b) (rCen a b)) (ix2 r (0 : Fin 1))
      + broadcastInDim S100000x1 ![] bcast_S_S100000x1 (constant (F := Ideal) S_ .f32 0x3727C5AC#32) (ix2 r (0 : Fin 1))) * _ + _ = _
  rw [rMean_apply, broadcastInDim_apply _ bcast_S_S100000x1 _ (ix2 r (0 : Fin 1)) ix0 (fun a => a.elim0)]
  have hsq : (fun k => mulf (F := Ideal) (s := S100000x32) (φ := .f32) (rCen a b) (rCen a b) (ix2 r k))
      = fun k => (act (fun k => a (ix2 r k)) (fun k => b (ix1 k)) k - mean32 (act (fun k => a (ix2 r k)) (fun k => b (ix1 k))))
          * (act (fun k => a (ix2 r k)) (fun k => b (ix1 k)) k - mean32 (act (fun k => a (ix2 r k)) (fun k => b (ix1 k)))) :=
    funext fun k => by show rCen a b (ix2 r k) * rCen a b (ix2 r k) = _; rw [rCen_apply]
  rw [hsq]
  rfl

end Reference

/-! ## From blocks to the array -/

section Blocks
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The one-row formula depends on its four rows entry by entry. -/
theorem lnRow_congr {row row' b b' g g' be be' : Fin 32 → EReal} (h0 : ∀ k, row k = row' k) (h1 : ∀ k, b k = b' k)
    (h2 : ∀ k, g k = g' k) (h3 : ∀ k, be k = be' k) (q : Fin 32) : lnRow row b g be q = lnRow row' b' g' be' q := by
  rw [funext h0, funext h1, funext h2, funext h3]

/-- Two functions on a [5000, 32] block agree when they agree at every (row, column). -/
theorem ext_block {α : Type} (f g : (⟨2, ![5000, 32]⟩ : Shape).Idx → α) (h : ∀ (p : Fin 5000) (q : Fin 32), f (ix2 p q) = g (ix2 p q)) :
    f = g := funext fun j => by rw [eq_ix2 j]; exact h _ _

/-- The printed index maps over the 20 grid points: at point `t` the two row-block windows sit at block row `t`, column
    block 0; the three parameter windows at block 0. -/
theorem idx_facts : ∀ t : Fin cfg4.N,
    win4_0.index t (0 : Fin 2) = t.val ∧ win4_0.index t (1 : Fin 2) = 0
    ∧ win4_1.index t (0 : Fin 1) = 0 ∧ win4_2.index t (0 : Fin 1) = 0 ∧ win4_3.index t (0 : Fin 1) = 0
    ∧ win4_4.index t (0 : Fin 2) = t.val ∧ win4_4.index t (1 : Fin 2) = 0 :=
  (by decide +kernel : ∀ t : Fin grid4.N, _)

/-- Row `p` of the input block at point `t` is row `5000 t + p` of the aggregated array. -/
theorem blkw0_apply (c : Dev nD) (t : Fin cfg4.N) (p : Fin 5000) (k : Fin 32) (hr : t.val * 5000 + p.val < 100000) :
    (iblk4 V c 0 t : Vec Ideal S5000x32 .f32) (ix2 p k)
      = (V c (Pipeline.arrRef spec4 0) : S100000x32.Idx → Elt Ideal .f32) (ix2 ⟨t.val * 5000 + p.val, hr⟩ k) := by
  obtain ⟨e0, e1, -⟩ := idx_facts t
  unfold iblk4
  rw [View.read_apply]
  refine congrArg (V c (Pipeline.arrRef spec4 0) : S100000x32.Idx → Elt Ideal .f32) (funext fun a => Fin.ext ?_)
  match a with
  | ⟨0, _⟩ => show win4_0.index t 0 * 5000 + 1 * p.val = t.val * 5000 + p.val; rw [e0]; omega
  | ⟨1, _⟩ => show win4_0.index t 1 * 32 + 1 * k.val = k.val; rw [e1]; omega

/-- Each parameter window's block at any point is the whole parameter vector. -/
theorem blkw1_apply (c : Dev nD) (t : Fin cfg4.N) (k : Fin 32) :
    (iblk4 V c 1 t : Vec Ideal S32 .f32) (ix1 k) = (V c (Pipeline.arrRef spec4 1) : S32.Idx → Elt Ideal .f32) (ix1 k) := by
  obtain ⟨-, -, e, -⟩ := idx_facts t
  unfold iblk4
  rw [View.read_apply]
  refine congrArg (V c (Pipeline.arrRef spec4 1) : S32.Idx → Elt Ideal .f32) (funext fun a => Fin.ext ?_)
  match a with
  | ⟨0, _⟩ => show win4_1.index t 0 * 32 + 1 * k.val = k.val; rw [e]; omega
theorem blkw2_apply (c : Dev nD) (t : Fin cfg4.N) (k : Fin 32) :
    (iblk4 V c 2 t : Vec Ideal S32 .f32) (ix1 k) = (V c (Pipeline.arrRef spec4 2) : S32.Idx → Elt Ideal .f32) (ix1 k) := by
  obtain ⟨-, -, -, e, -⟩ := idx_facts t
  unfold iblk4
  rw [View.read_apply]
  refine congrArg (V c (Pipeline.arrRef spec4 2) : S32.Idx → Elt Ideal .f32) (funext fun a => Fin.ext ?_)
  match a with
  | ⟨0, _⟩ => show win4_2.index t 0 * 32 + 1 * k.val = k.val; rw [e]; omega
theorem blkw3_apply (c : Dev nD) (t : Fin cfg4.N) (k : Fin 32) :
    (iblk4 V c 3 t : Vec Ideal S32 .f32) (ix1 k) = (V c (Pipeline.arrRef spec4 3) : S32.Idx → Elt Ideal .f32) (ix1 k) := by
  obtain ⟨-, -, -, -, e, -⟩ := idx_facts t
  unfold iblk4
  rw [View.read_apply]
  refine congrArg (V c (Pipeline.arrRef spec4 3) : S32.Idx → Elt Ideal .f32) (funext fun a => Fin.ext ?_)
  match a with
  | ⟨0, _⟩ => show win4_3.index t 0 * 32 + 1 * k.val = k.val; rw [e]; omega

/-- WHAT POINT `t` WRITES BACK is block `t` of the reference's stage applied to the arrays as the region finds them. -/
theorem flushed_eq (c : Dev nD) (t : Fin cfg4.N) :
    (dat4 V c).flushed 4 t = ((cfg4.win 4).blk t).view.read (Elt Ideal)
      (R (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero hz2]
  simp only [View.ld_unit_zero (S := S5000x32) hz2, View.ld_unit_zero (S := S32) hz1]
  refine ext_block _ _ fun p q => ?_
  have hN : cfg4.N = 20 := N_4
  have hr : t.val * 5000 + p.val < 100000 := by have := t.isLt; omega
  obtain ⟨-, -, -, -, -, e5, e6⟩ := idx_facts t
  have hemb : ((cfg4.win 4).blk t).view.emb (ix2 p q) = ix2 ⟨t.val * 5000 + p.val, hr⟩ q := by
    funext a
    apply Fin.ext
    match a with
    | ⟨0, _⟩ => show win4_4.index t 0 * 5000 + 1 * p.val = t.val * 5000 + p.val; rw [e5]; omega
    | ⟨1, _⟩ => show win4_4.index t 1 * 32 + 1 * q.val = q.val; rw [e6]; omega
  rw [View.read_apply]
  refine ((kLN_apply _ _ _ _ p q).trans ?_).trans ((congrArg _ hemb).trans (R_apply _ _ _ _ ⟨_, hr⟩ q)).symm
  exact lnRow_congr (fun k => blkw0_apply V c t p k hr) (fun k => blkw1_apply V c t k) (fun k => blkw2_apply V c t k)
    (fun k => blkw3_apply V c t k) q

/-- An index of the array is in point `t`'s block iff each coordinate is in the block's range on its axis. -/
theorem mem_blk (t : Fin cfg4.N) (i : S100000x32.Idx) :
    i ∈ ((cfg4.win 4).blk t).view.set ↔ ∀ a : Fin 2, win4_4.index t a * S5000x32.size a ≤ (i a).val ∧ (i a).val < win4_4.index t a * S5000x32.size a + S5000x32.size a := by
  show i ∈ ((View.whole main_v64).slice (win4_4.rect t)).set ↔ _
  rw [View.set_slice_whole, Rect.mem_set_unit]
  exact Iff.rfl

/-- THE ARRAY AFTER THE REGION: the reference's stage applied to the arrays as the region finds them. Row `r` lies in
    the block of point `r / 5000`, so the 20 blocks cover the array. -/
theorem final (c : Dev nD) :
    (dat4 V c).arrAt 4 cfg4.N
      = R (V c (Pipeline.arrRef spec4 0)) (V c (Pipeline.arrRef spec4 1)) (V c (Pipeline.arrRef spec4 2)) (V c (Pipeline.arrRef spec4 3)) :=
  (dat4 V c).arrAt_eq_of_cover 4 _ (fun t _ => flushed_eq V c t) fun i => by
    have hi0 : (i 0).val < 100000 := (i 0).isLt
    have hi1 : (i 1).val < 32 := (i 1).isLt
    have hN : cfg4.N = 20 := N_4
    obtain ⟨t, ht⟩ : ∃ t : Fin cfg4.N, t.val = (i 0).val / 5000 := ⟨⟨(i 0).val / 5000, by omega⟩, rfl⟩
    obtain ⟨-, -, -, -, -, e5, e6⟩ := idx_facts t
    refine ⟨t, flush4_4 t, ?_⟩
    rw [mem_blk]
    intro a
    match a with
    | ⟨0, _⟩ => show win4_4.index t 0 * 5000 ≤ (i 0).val ∧ (i 0).val < win4_4.index t 0 * 5000 + 5000; rw [e5, ht]; omega
    | ⟨1, _⟩ => show win4_4.index t 1 * 32 ≤ (i 1).val ∧ (i 1).val < win4_4.index t 1 * 32 + 32; rw [e6]; omega

end Blocks

end Cert.Bridge.LayerNorm2

end
-- ==== Proof.ResultsAgree.lean ====
/-
  The two programs compute the same arrays.  Each region module proves that its region leaves in its output array the
  reference's chain of operations for that stage, written there in a few small pieces; those pieces put together are
  the reference's stage as one term (the same operations in the same order).  So the kernel's final
  contents are the contents after the straight line of host operations with the reference's stages standing for the
  regions, and that line's two results are the reference run's two composed terms of the arguments.
-/
import proofs.«106738_j23158463660764_2_alg».proof.Proof.LineValue
import proofs.«106738_j23158463660764_2_alg».proof.Proof.AttnSoftmax
import proofs.«106738_j23158463660764_2_alg».proof.Proof.Linear1
import proofs.«106738_j23158463660764_2_alg».proof.Proof.LayerNorm1
import proofs.«106738_j23158463660764_2_alg».proof.Proof.Linear2
import proofs.«106738_j23158463660764_2_alg».proof.Proof.LayerNorm2

set_option maxRecDepth 65536

noncomputable section

namespace Cert.Bridge.ResultsAgree

open Idealize.ShloMosaic Idealize.ShloMosaic.TcCoe Idealize.SL.Sem Idealize.ShloMosaic.StableHlo
open Cert.KernelIdeal Cert.KernelIdeal.Gen Cert.Bridge.KernelLine Cert.Bridge.RefStages

/-- The softmax stage in pieces (logits, row maximum, shift, normalise) is the reference's stage. -/
theorem stage0 (x w b) : Cert.Bridge.AttnSoftmaxRef.R0 (F := Ideal) x w b = softmaxStage (F := Ideal) x w b := rfl
/-- The first dense layer. -/
theorem stage1 (a b) : Cert.Bridge.Linear1.R a b = dense1 (F := Ideal) a b := rfl
/-- The first layer norm in pieces (row and column broadcasts, relu, mean, centring) is the reference's stage. -/
theorem stage2 (a b g be) : Cert.Bridge.LayerNorm1.R a b g be = norm1 (F := Ideal) a b g be := rfl
/-- The second dense layer. -/
theorem stage3 (a b) : Cert.Bridge.Linear2.R a b = dense2 (F := Ideal) a b := rfl
/-- The second layer norm. -/
theorem stage4 (a b g be) : Cert.Bridge.LayerNorm2.R a b g be = norm2 (F := Ideal) a b g be := rfl

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The last boundary's contents are the contents after the line whose region operations are the reference's stages. -/
theorem end_eq (c : Dev nD) :
    W11 m ρ c = StableHlo.after (line (F := Ideal) softmaxStage dense1 norm1 dense2 norm2) (W0 m ρ c) :=
  end_eq_after_line m ρ softmaxStage dense1 norm1 dense2 norm2
    (fun c => (Cert.Bridge.AttnSoftmax.final (V0 m ρ) c).trans (stage0 _ _ _))
    (fun c => (Cert.Bridge.Linear1.final (V4 m ρ) c).trans (stage1 _ _))
    (fun c => (Cert.Bridge.LayerNorm1.final (V6 m ρ) c).trans (stage2 _ _ _ _))
    (fun c => (Cert.Bridge.Linear2.final (V7 m ρ) c).trans (stage3 _ _))
    (fun c => (Cert.Bridge.LayerNorm2.final (V9 m ρ) c).trans (stage4 _ _ _ _)) c

variable (hagree : ∀ c : Dev nD,
        m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15))
include hagree

/-- The node features: the reference's composed term is the kernel's final contents of its first result. -/
theorem out0 (c : Dev nD) :
    Cert.ReferenceIdeal.Value.res_main_v168 m' c = W11 m ρ c (Proc.devRef .tc main_v64) :=
  (Cert.Bridge.LineValue.out0 (F := Ideal) m ρ m' hagree c).trans (congrFun (end_eq m ρ c).symm _)

/-- The pooled logits: likewise for the second result. -/
theorem out1 (c : Dev nD) :
    Cert.ReferenceIdeal.Value.res_main_v184 m' c = W11 m ρ c (Proc.devRef .tc main_v80) :=
  (Cert.Bridge.LineValue.out1 (F := Ideal) m ρ m' hagree c).trans (congrFun (end_eq m ρ c).symm _)

end Cert.Bridge.ResultsAgree

end
-- ==== Proof.lean ====
/-
  The certificate of a two-layer graph convolution network with an attention softmax in front and a mean pool behind:
  node features x [100000, 128], 3,200,000 weighted edges plus a self loop per node, symmetric degree normalisation.
  The kernel tiles the dense stages over the node axis in five pipelined regions — softmax(x · W_att + b_att) in blocks
  of 10000 rows; x1 · W1 and x2 · W2 in blocks of 5000 rows; and twice bias · relu · layer norm · gamma + beta in
  blocks of 5000 rows — and leaves the edge normalisation, the gather–scale–scatter aggregation, the pool and the last
  dense layer to host operations; the reference does everything with host operations.

  Frames: the two kernel programs' frames are generated whole; the reference's is its generated run with the results
  dropped.  The idealization rewrote nothing, so it is sanctioned trivially.  Equivalence over the extended reals: every
  stage is row-local — an output row depends only on the same row of the stage's input and on the small parameter
  arrays — and the kernel applies, within a block of rows, exactly the operations the reference applies to the whole
  array, in the same order; so each region leaves in its output array the reference's own chain of operations applied
  to its input arrays (one module per region), the program is then one straight line of host operations, and its two
  results are the reference's two composed terms of the arguments.  No algebraic law is used beyond reading both sides
  at an index, and the precondition is not needed.
-/
import proofs.«106738_j23158463660764_2_alg».proof.Defs
import proofs.«106738_j23158463660764_2_alg».proof.Proof.Gen.Kernel
import proofs.«106738_j23158463660764_2_alg».proof.Proof.Gen.Kernel.Frame
import proofs.«106738_j23158463660764_2_alg».proof.Proof.Gen.KernelIdeal
import proofs.«106738_j23158463660764_2_alg».proof.Proof.Gen.KernelIdeal.Frame
import proofs.«106738_j23158463660764_2_alg».proof.Proof.Gen.ReferenceIdeal
import proofs.«106738_j23158463660764_2_alg».proof.Proof.Gen.ReferenceIdeal.Run
import proofs.«106738_j23158463660764_2_alg».proof.Proof.Gen.Pre_finite_inputs
import proofs.«106738_j23158463660764_2_alg».proof.Proof.KernelRun
import proofs.«106738_j23158463660764_2_alg».proof.Proof.ResultsAgree
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the two results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- From memories agreeing on the arguments both programs end with the same node features and the same pooled
    logits: the kernel's run names its results at the last boundary's contents, and those are the reference's terms. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.KernelIdeal.Gen.W11 m ρ c (Proc.devRef .tc Cert.KernelIdeal.main_v64),
     fun c => Cert.KernelIdeal.Gen.W11 m ρ c (Proc.devRef .tc Cert.KernelIdeal.main_v80),
     Cert.Bridge.KernelRun.run_named (F := Ideal) m ρ,
     (θ_run Cert.ReferenceIdeal.defs _ _).mono
       (fun _ h c => ⟨(h c).1.trans (Cert.Bridge.ResultsAgree.out0 m ρ m' hagree c),
         (h c).2.1.trans (Cert.Bridge.ResultsAgree.out1 m ρ m' hagree c), (h c).2.2⟩)
       (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
